-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x5x64 : Shape := ⟨3, ![32768, 5, 64]⟩
abbrev S32768x5 : Shape := ⟨2, ![32768, 5]⟩
abbrev S64x64 : Shape := ⟨2, ![64, 64]⟩
abbrev S64 : Shape := ⟨1, ![64]⟩
abbrev S320x128 : Shape := ⟨2, ![320, 128]⟩
abbrev S128 : Shape := ⟨1, ![128]⟩
abbrev S_ : Shape := ⟨0, ![]⟩

class Facts : Prop where
  bcast_S_S32768x5x64 : S_.BroadcastsInDim S32768x5x64 (![] : Fin 0 → Fin S32768x5x64.rank)
  reducesTo_S32768x5x64_S_d0_1_2 : S32768x5x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32768x5x64 .f32) (main_arg1 : IVec S32768x5 32) (main_arg2 : FVec F S64x64 .f32) (main_arg3 : FVec F S64 .f32) (main_arg4 : FVec F S320x128 .f32) (main_arg5 : FVec F S128 .f32) : IVec S_ 1 :=
  let main_v0 : FVec F S32768x5x64 .f32 := Host.absf main_arg0
  let main_cst : FVec F S_ .f32 := constant S_ .f32 0x7F800000#32
  let main_v1 : FVec F S32768x5x64 .f32 := broadcastInDim S32768x5x64 ![] bcast_S_S32768x5x64 main_cst
  let main_v2 : IVec S32768x5x64 1 := cmpf .olt main_v0 main_v1
  let main_c : IVec S_ 1 := constantI S_ 1 1#1
  let main_v3 : IVec S_ 1 := (fun x v => Host.reduce IntOp.andi x v reducesTo_S32768x5x64_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S320x128 .f32 := Host.absf main_arg4
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg5 main_v13 main_v16
-- ==== Kernel.lean ====
abbrev S32768x5x64 : Shape := ⟨3, ![32768, 5, 64]⟩
abbrev S32768x5 : Shape := ⟨2, ![32768, 5]⟩
abbrev S64x64 : Shape := ⟨2, ![64, 64]⟩
abbrev S64 : Shape := ⟨1, ![64]⟩
abbrev S320x128 : Shape := ⟨2, ![320, 128]⟩
abbrev S128 : Shape := ⟨1, ![128]⟩
abbrev S5x64x32768 : Shape := ⟨3, ![5, 64, 32768]⟩
abbrev S5x32768 : Shape := ⟨2, ![5, 32768]⟩
abbrev S5x1x32768 : Shape := ⟨3, ![5, 1, 32768]⟩
abbrev S5x64x128 : Shape := ⟨3, ![5, 64, 128]⟩
abbrev S64x1 : Shape := ⟨2, ![64, 1]⟩
abbrev S128x1 : Shape := ⟨2, ![128, 1]⟩
abbrev S32768x128 : Shape := ⟨2, ![32768, 128]⟩
abbrev S1x64x8192 : Shape := ⟨3, ![1, 64, 8192]⟩
abbrev S1x1x8192 : Shape := ⟨3, ![1, 1, 8192]⟩
abbrev S1x64x128 : Shape := ⟨3, ![1, 64, 128]⟩
abbrev S8192x128 : Shape := ⟨2, ![8192, 128]⟩
abbrev S128x8192 : Shape := ⟨2, ![128, 8192]⟩
abbrev S64x8192 : Shape := ⟨2, ![64, 8192]⟩
abbrev S1x8192 : Shape := ⟨2, ![1, 8192]⟩
abbrev S64x128 : Shape := ⟨2, ![64, 128]⟩

abbrev nBuf : Space → Nat
  | .hbm => 13
  | .vmem => 12
  | .smem => 0
  | _ => 0

abbrev bufTy : (tb : Table) → Fin (tcTables nBuf tb) → BufTy
  | .hbm, ⟨0, _⟩ => ⟨S32768x5x64, .f32⟩
  | .hbm, ⟨1, _⟩ => ⟨S32768x5, .i32⟩
  | .hbm, ⟨2, _⟩ => ⟨S64x64, .f32⟩
  | .hbm, ⟨3, _⟩ => ⟨S64, .f32⟩
  | .hbm, ⟨4, _⟩ => ⟨S320x128, .f32⟩
  | .hbm, ⟨5, _⟩ => ⟨S128, .f32⟩
  | .hbm, ⟨6, _⟩ => ⟨S5x64x32768, .f32⟩
  | .hbm, ⟨7, _⟩ => ⟨S5x32768, .i32⟩
  | .hbm, ⟨8, _⟩ => ⟨S5x1x32768, .i32⟩
  | .hbm, ⟨9, _⟩ => ⟨S5x64x128, .f32⟩
  | .hbm, ⟨10, _⟩ => ⟨S64x1, .f32⟩
  | .hbm, ⟨11, _⟩ => ⟨S128x1, .f32⟩
  | .hbm, ⟨12, _⟩ => ⟨S32768x128, .f32⟩
  | .local _ .vmem, ⟨0, _⟩ => ⟨S1x64x8192, .f32⟩
  | .local _ .vmem, ⟨1, _⟩ => ⟨S1x64x8192, .f32⟩
  | .local _ .vmem, ⟨2, _⟩ => ⟨S1x1x8192, .i32⟩
  | .local _ .vmem, ⟨3, _⟩ => ⟨S1x1x8192, .i32⟩
  | .local _ .vmem, ⟨4, _⟩ => ⟨S64x64, .f32⟩
  | .local _ .vmem, ⟨5, _⟩ => ⟨S64x1, .f32⟩
  | .local _ .vmem, ⟨6, _⟩ => ⟨S1x64x128, .f32⟩
  | .local _ .vmem, ⟨7, _⟩ => ⟨S1x64x128, .f32⟩
  | .local _ .vmem, ⟨8, _⟩ => ⟨S128x1, .f32⟩
  | .local _ .vmem, ⟨9, _⟩ => ⟨S8192x128, .f32⟩
  | .local _ .vmem, ⟨10, _⟩ => ⟨S8192x128, .f32⟩
  | .local _ .vmem, ⟨11, _⟩ => ⟨S128x8192, .f32⟩
  | _, _ => ⟨S32768x5x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32 : BitVec 32 := 4#32
  let v24 : BitVec 1 := Scalar.cmpi .eq arg1 c4_i32
  let v25 : BitVec 32 := Scalar.extui v24
  let c0_i32_17 : BitVec 32 := 0#32
  let v26 : BitVec 1 := Scalar.cmpi .ne v25 c0_i32_17
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S32768x5x64_S5x64x32768_1_2_0 : S32768x5x64.Transposes [1, 2, 0] S5x64x32768
  transposes_S32768x5_S5x32768_1_0 : S32768x5.Transposes [1, 0] S5x32768
  shapeCasts_S5x32768_S5x1x32768 : S5x32768.ShapeCasts S5x1x32768
  shapeCasts_S320x128_S5x64x128 : S320x128.ShapeCasts S5x64x128
  shapeCasts_S64_S64x1 : S64.ShapeCasts S64x1
  shapeCasts_S128_S128x1 : S128.ShapeCasts S128x1
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  broadcasts_S1x8192_S64x8192 : S1x8192.Broadcasts S64x8192
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  transposes_S128x8192_p1_0_S8192x128 : S128x8192.Transposes [1, 0] S8192x128
  inb_S8192x128_S8192x128_0_0 : ∀ a, (![0, 0] : Fin 2 → Nat) a + S8192x128.size a ≤ S8192x128.size a
  h_S8192x128 : 0 < S8192x128.numel
  dot_S64x64_S64x8192_S64x8192_0_0_1_1_n_n_wf : DotDims.WF S64x64 S64x8192 S64x8192 [0] [0] [1] [1] [] []
  dot_S64x128_S64x8192_S128x8192_0_0_1_1_n_n_wf : DotDims.WF S64x128 S64x8192 S128x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S5x64x32768.size a
  hwx0_0 : ∀ i : grid0.Coords, EltTy.bits .f32 = 32 ∨ (Rect.block (s := S5x64x32768) S1x64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S5x1x32768.size a
  hwx0_1 : ∀ i : grid0.Coords, EltTy.bits .i32 = 32 ∨ (Rect.block (s := S5x1x32768) S1x1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128.size a ≤ S5x64x128.size a
  hwx0_4 : ∀ i : grid0.Coords, EltTy.bits .f32 = 32 ∨ (Rect.block (s := S5x64x128) S1x64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x128.size a ≤ S32768x128.size a
  hwx0_6 : ∀ i : grid0.Coords, EltTy.bits .f32 = 32 ∨ (Rect.block (s := S32768x128) S8192x128.size (cc0_transform_6 i) (hinb0_6 i)).WholeWords (EltTy.packing .f32)

variable [Facts₀]

def dot_S64x64_S64x8192_S64x8192_0_0_1_1_n_n : DotDims S64x64 S64x8192 S64x8192 where
  lhsContracting := [0]
  rhsContracting := [0]
  lhsNonContracting := [1]
  rhsNonContracting := [1]
  lhsBatch := []
  rhsBatch := []
  wf := dot_S64x64_S64x8192_S64x8192_0_0_1_1_n_n_wf
def dot_S64x128_S64x8192_S128x8192_0_0_1_1_n_n : DotDims S64x128 S64x8192 S128x8192 where
  lhsContracting := [0]
  rhsContracting := [0]
  lhsNonContracting := [1]
  rhsNonContracting := [1]
  lhsBatch := []
  rhsBatch := []
  wf := dot_S64x128_S64x8192_S128x8192_0_0_1_1_n_n_wf

abbrev win0_0 : Pipeline.Window sig grid0 :=
  Pipeline.Window.ofSpec (Memref.whole main_call0_v0) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x64x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8192x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S32768x5x64 : Shape := ⟨3, ![32768, 5, 64]⟩
abbrev S32768x5 : Shape := ⟨2, ![32768, 5]⟩
abbrev S64x64 : Shape := ⟨2, ![64, 64]⟩
abbrev S64 : Shape := ⟨1, ![64]⟩
abbrev S320x128 : Shape := ⟨2, ![320, 128]⟩
abbrev S128 : Shape := ⟨1, ![128]⟩
abbrev S1x1x64 : Shape := ⟨3, ![1, 1, 64]⟩
abbrev S_ : Shape := ⟨0, ![]⟩
abbrev S32768x5x1 : Shape := ⟨3, ![32768, 5, 1]⟩
abbrev S32768x320 : Shape := ⟨2, ![32768, 320]⟩
abbrev S32768x128 : Shape := ⟨2, ![32768, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x5x64, .f32⟩
  | .hbm, ⟨1, _⟩ => ⟨S32768x5, .i32⟩
  | .hbm, ⟨2, _⟩ => ⟨S64x64, .f32⟩
  | .hbm, ⟨3, _⟩ => ⟨S64, .f32⟩
  | .hbm, ⟨4, _⟩ => ⟨S320x128, .f32⟩
  | .hbm, ⟨5, _⟩ => ⟨S128, .f32⟩
  | .hbm, ⟨6, _⟩ => ⟨S32768x5x64, .f32⟩
  | .hbm, ⟨7, _⟩ => ⟨S1x1x64, .f32⟩
  | .hbm, ⟨8, _⟩ => ⟨S32768x5x64, .f32⟩
  | .hbm, ⟨9, _⟩ => ⟨S32768x5x64, .f32⟩
  | .hbm, ⟨10, _⟩ => ⟨S_, .f32⟩
  | .hbm, ⟨11, _⟩ => ⟨S32768x5x64, .f32⟩
  | .hbm, ⟨12, _⟩ => ⟨S32768x5x64, .f32⟩
  | .hbm, ⟨13, _⟩ => ⟨S32768x5, .f32⟩
  | .hbm, ⟨14, _⟩ => ⟨S32768x5x1, .f32⟩
  | .hbm, ⟨15, _⟩ => ⟨S32768x5x64, .f32⟩
  | .hbm, ⟨16, _⟩ => ⟨S32768x5x64, .f32⟩
  | .hbm, ⟨17, _⟩ => ⟨S32768x320, .f32⟩
  | .hbm, ⟨18, _⟩ => ⟨S32768x128, .f32⟩
  | .hbm, ⟨19, _⟩ => ⟨S1x128, .f32⟩
  | .hbm, ⟨20, _⟩ => ⟨S32768x128, .f32⟩
  | .hbm, ⟨21, _⟩ => ⟨S32768x128, .f32⟩
  | .hbm, ⟨22, _⟩ => ⟨S_, .f32⟩
  | .hbm, ⟨23, _⟩ => ⟨S32768x128, .f32⟩
  | .hbm, ⟨24, _⟩ => ⟨S32768x128, .f32⟩
  | _, _ => ⟨S32768x5x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32768x5x64_0_1_2 : S1x1x64.BroadcastsInDim S32768x5x64 (![0, 1, 2] : Fin 3 → Fin S32768x5x64.rank)
  bcast_S_S32768x5x64 : S_.BroadcastsInDim S32768x5x64 (![] : Fin 0 → Fin S32768x5x64.rank)
  bcast_S32768x5_S32768x5x1_0_1 : S32768x5.BroadcastsInDim S32768x5x1 (![0, 1] : Fin 2 → Fin S32768x5x1.rank)
  bcast_S32768x5x1_S32768x5x64_0_1_2 : S32768x5x1.BroadcastsInDim S32768x5x64 (![0, 1, 2] : Fin 3 → Fin S32768x5x64.rank)
  shapeCasts_S32768x5x64_S32768x320 : S32768x5x64.ShapeCasts S32768x320
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x5x64_S64x64_S32768x5x64_2_0_01_1_n_n_wf : DotDims.WF S32768x5x64 S64x64 S32768x5x64 [2] [0] [0, 1] [1] [] []
  dot_S32768x320_S320x128_S32768x128_1_0_0_1_n_n_wf : DotDims.WF S32768x320 S320x128 S32768x128 [1] [0] [0] [1] [] []

variable [Facts₀]

def dot_S32768x5x64_S64x64_S32768x5x64_2_0_01_1_n_n : DotDims S32768x5x64 S64x64 S32768x5x64 where
  lhsContracting := [2]
  rhsContracting := [0]
  lhsNonContracting := [0, 1]
  rhsNonContracting := [1]
  lhsBatch := []
  rhsBatch := []
  wf := dot_S32768x5x64_S64x64_S32768x5x64_2_0_01_1_n_n_wf
def dot_S32768x320_S320x128_S32768x128_1_0_0_1_n_n : DotDims S32768x320 S320x128 S32768x128 where
  lhsContracting := [1]
  rhsContracting := [0]
  lhsNonContracting := [0]
  rhsNonContracting := [1]
  lhsBatch := []
  rhsBatch := []
  wf := dot_S32768x320_S320x128_S32768x128_1_0_0_1_n_n_wf

class Facts : Prop extends Facts₀ where

variable [Facts]
-- ==== Proof.WordConds.lean ====
/-
  The slot coordinate of a grid point decides which of the body's three guarded blocks run: the first slot
  (coordinate 0) overwrites the accumulator with the slot's product, every later slot adds its product to it, and
  the last slot (coordinate 4) also adds the bias, clamps at zero and writes the transposed block out. With the
  grid [4, 5] read in row-major order, point `t` has slot coordinate `t % 5`.
-/
import proofs.«151459_g5703716569288_cont_9to1c4b_55_33_alg».proof.Proof.Gen.Kernel.Launch
import proofs.«151459_g5703716569288_cont_9to1c4b_55_33_alg».proof.Proof.Gen.Kernel.Skeleton
import proofs.«151459_g5703716569288_cont_9to1c4b_55_33_alg».proof.Proof.Gen.Kernel.Points
import proofs.«151459_g5703716569288_cont_9to1c4b_55_33_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three guards, from the slot coordinate -/

/-- "This is the first slot": the guard of the block that overwrites the accumulator. -/
abbrev isFirst (i : grid0.Coords) : Prop :=
  (Scalar.cmpi .ne (Scalar.extui (Scalar.cmpi .eq (BitVec.ofNat 32 (i 1).val) 0#32)) 0#32) = 1#1
/-- "This is a later slot": the guard of the block that adds to the accumulator. -/
abbrev isLater (i : grid0.Coords) : Prop :=
  (Scalar.cmpi .ne (Scalar.extui (Scalar.cmpi .ne (BitVec.ofNat 32 (i 1).val) 0#32)) 0#32) = 1#1
/-- "This is the last slot": the guard of the block that writes the output. -/
abbrev isLast (i : grid0.Coords) : Prop := k0_cond3 i = 1#1

theorem isFirst_iff : ∀ t : Fin cfg0.N, isFirst (grid0.coords t) ↔ t.val % 5 = 0 :=
  (by decide +kernel : ∀ t : Fin grid0.N, isFirst (grid0.coords t) ↔ t.val % 5 = 0)
theorem isLater_iff : ∀ t : Fin cfg0.N, isLater (grid0.coords t) ↔ ¬ t.val % 5 = 0 :=
  (by decide +kernel : ∀ t : Fin grid0.N, isLater (grid0.coords t) ↔ ¬ t.val % 5 = 0)
theorem isLast_iff : ∀ t : Fin cfg0.N, isLast (grid0.coords t) ↔ t.val % 5 = 4 :=
  (by decide +kernel : ∀ t : Fin grid0.N, isLast (grid0.coords t) ↔ t.val % 5 = 4)

/-! ## Where the output window is idle -/

theorem live_in (w : Fin 7) (hw : w.val < 6) : ∀ t : Fin cfg0.N, cfg0.idle w (grid0.coords t) = false := by
  revert w; decide +kernel
/-- Away from the last slot the output window is idle, -/
theorem idle_out : ∀ t : Fin cfg0.N, ¬ t.val % 5 = 4 → cfg0.idle 6 (grid0.coords t) = true := by decide +kernel
/-- and its block is not written back there; -/
theorem noFlush_out : ∀ t : Fin cfg0.N, ¬ t.val % 5 = 4 → (cfg0.win 6).flush t = false := by decide +kernel
/-- at the last slot it is live. -/
theorem live_out : ∀ t : Fin cfg0.N, t.val % 5 = 4 → cfg0.idle 6 (grid0.coords t) = false := by decide +kernel

/-! ## The memrefs the body is called with -/

abbrev ms0 (t : Fin cfg0.N) : Memref sig .tc .vmem S1x64x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x8192 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8192x128 .f32 := win0_6.stage (cfg0.slots t 6)
abbrev hs6 (t : Fin cfg0.N) : (ms6 t).IsWhole := hstage0_6 ((cfg0.slots t 6).cast nbuf0_6)
/-- The accumulator: a whole scoped buffer of the kernel's own. -/
abbrev accM : Memref sig .tc .vmem S128x8192 .f32 := Memref.whole cc0_scratch0
/-- The accumulator and one staging buffer of the output window as views: contents are stated through them. -/
abbrev accV : View sig .tc .vmem S128x8192 .f32 := accM.view
abbrev outV : View sig .tc .vmem S8192x128 .f32 := (Memref.whole cc0_stg6_0 : Memref sig .tc .vmem S8192x128 .f32).view

/-- What the launch hands the region beside the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.WordRunFirst.lean ====
/-
  The body at a first slot. It reads the five blocks of the slot, and overwrites the accumulator with the slot's
  product; the output block is left as found. The accumulator may hold anything on entry.
-/
import proofs.«151459_g5703716569288_cont_9to1c4b_55_33_alg».proof.Proof.WordConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the accumulator ends with at a first slot, with the body's triple: the inputs and the output block are
    handed back as they were. -/
noncomputable def runFirst (c : Dev nD) (i : grid0.Coords)
    (a2 : Memref sig .tc .vmem S1x64x8192 .f32) (h2 : a2.IsWhole) (a3 : Memref sig .tc .vmem S1x1x8192 .i32) (h3 : a3.IsWhole)
    (a4 : Memref sig .tc .vmem S64x64 .f32) (h4 : a4.IsWhole) (a5 : Memref sig .tc .vmem S64x1 .f32) (h5 : a5.IsWhole)
    (a6 : Memref sig .tc .vmem S1x64x128 .f32) (h6 : a6.IsWhole) (a7 : Memref sig .tc .vmem S128x1 .f32) (h7 : a7.IsWhole)
    (a8 : Memref sig .tc .vmem S8192x128 .f32) (h8 : a8.IsWhole) (a9 : Memref sig .tc .vmem S128x8192 .f32) (h9 : a9.IsWhole)
    (hc1 : isFirst i) (hc2 : ¬isLater i) (hc3 : ¬isLast i)
    (x0 : Vec F S1x64x8192 .f32) (x1 : Vec F S1x1x8192 .i32) (x2 : Vec F S64x64 .f32) (x3 : Vec F S64x1 .f32) (x4 : Vec F S1x64x128 .f32) (x5 : Vec F S128x1 .f32) :
    { LS : List (View.Piece (Elt F) S128x8192 .f32) //
      ∀ (xo : Vec F S8192x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, fun xo E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    sl_exec (disch := first | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

end Cert.Kernel.Body

end
-- ==== Proof.WordRunMid.lean ====
/-
  The body at a slot that is neither first nor last. It reads the slot's blocks and the accumulator, and stores back
  the accumulator plus the slot's product; the output block is left as found.
-/
import proofs.«151459_g5703716569288_cont_9to1c4b_55_33_alg».proof.Proof.WordRunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the accumulator ends with at a middle slot, entered with the accumulator at `xs`. -/
noncomputable def runMid (c : Dev nD) (i : grid0.Coords)
    (a2 : Memref sig .tc .vmem S1x64x8192 .f32) (h2 : a2.IsWhole) (a3 : Memref sig .tc .vmem S1x1x8192 .i32) (h3 : a3.IsWhole)
    (a4 : Memref sig .tc .vmem S64x64 .f32) (h4 : a4.IsWhole) (a5 : Memref sig .tc .vmem S64x1 .f32) (h5 : a5.IsWhole)
    (a6 : Memref sig .tc .vmem S1x64x128 .f32) (h6 : a6.IsWhole) (a7 : Memref sig .tc .vmem S128x1 .f32) (h7 : a7.IsWhole)
    (a8 : Memref sig .tc .vmem S8192x128 .f32) (h8 : a8.IsWhole) (a9 : Memref sig .tc .vmem S128x8192 .f32) (h9 : a9.IsWhole)
    (hc1 : ¬isFirst i) (hc2 : isLater i) (hc3 : ¬isLast i)
    (x0 : Vec F S1x64x8192 .f32) (x1 : Vec F S1x1x8192 .i32) (x2 : Vec F S64x64 .f32) (x3 : Vec F S64x1 .f32) (x4 : Vec F S1x64x128 .f32) (x5 : Vec F S128x1 .f32) (xs : Vec F S128x8192 .f32) :
    { LS : List (View.Piece (Elt F) S128x8192 .f32) //
      ∀ (xo : Vec F S8192x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, fun xo E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6; obtain rfl := h9.eq_unread hfs
    sl_exec (disch := first | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

end Cert.Kernel.Body

end
-- ==== Proof.WordRunLast.lean ====
/-
  The body at a last slot. It adds the slot's product to the accumulator, then reads the accumulator back, adds the
  bias column, clamps at zero, transposes, and stores the result over the whole output block. The output block may
  hold anything on entry.
-/
import proofs.«151459_g5703716569288_cont_9to1c4b_55_33_alg».proof.Proof.WordRunMid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the output block and the accumulator end with at a last slot, entered with the accumulator at `xs`. -/
noncomputable def runLast (c : Dev nD) (i : grid0.Coords)
    (a2 : Memref sig .tc .vmem S1x64x8192 .f32) (h2 : a2.IsWhole) (a3 : Memref sig .tc .vmem S1x1x8192 .i32) (h3 : a3.IsWhole)
    (a4 : Memref sig .tc .vmem S64x64 .f32) (h4 : a4.IsWhole) (a5 : Memref sig .tc .vmem S64x1 .f32) (h5 : a5.IsWhole)
    (a6 : Memref sig .tc .vmem S1x64x128 .f32) (h6 : a6.IsWhole) (a7 : Memref sig .tc .vmem S128x1 .f32) (h7 : a7.IsWhole)
    (a8 : Memref sig .tc .vmem S8192x128 .f32) (h8 : a8.IsWhole) (a9 : Memref sig .tc .vmem S128x8192 .f32) (h9 : a9.IsWhole)
    (hc1 : ¬isFirst i) (hc2 : isLater i) (hc3 : isLast i)
    (x0 : Vec F S1x64x8192 .f32) (x1 : Vec F S1x1x8192 .i32) (x2 : Vec F S64x64 .f32) (x3 : Vec F S64x1 .f32) (x4 : Vec F S1x64x128 .f32) (x5 : Vec F S128x1 .f32) (xs : Vec F S128x8192 .f32) :
    Σ' (LO : List (View.Piece (Elt F) S8192x128 .f32)), { LS : List (View.Piece (Elt F) S128x8192 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h9.eq_unread hfs
    sl_exec (disch := first | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    iexists _; iexact HS

end Cert.Kernel.Body

end
-- ==== Proof.WordPieces.lean ====
/-
  What the body's stores leave, read back. At a first slot the accumulator holds the slot's product; at a later slot
  it holds what it held plus the slot's product; at a last slot the output block holds the transposed, clamped sum of
  that accumulator and the bias column. Each is one store over the whole buffer, so the stored value is what a later
  read finds, whatever the buffer held before.
-/
import proofs.«151459_g5703716569288_cont_9to1c4b_55_33_alg».proof.Proof.WordRunLast
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros2 : (![0, 0] : Fin 2 → Nat) = fun _ => 0 := by funext a; fin_cases a <;> rfl
theorem zeros3 : (![0, 0, 0] : Fin 3 → Nat) = fun _ => 0 := by funext a; fin_cases a <;> rfl

section
variable (c : Dev nD) (i : grid0.Coords)
    (a2 : Memref sig .tc .vmem S1x64x8192 .f32) (h2 : a2.IsWhole) (a3 : Memref sig .tc .vmem S1x1x8192 .i32) (h3 : a3.IsWhole)
    (a4 : Memref sig .tc .vmem S64x64 .f32) (h4 : a4.IsWhole) (a5 : Memref sig .tc .vmem S64x1 .f32) (h5 : a5.IsWhole)
    (a6 : Memref sig .tc .vmem S1x64x128 .f32) (h6 : a6.IsWhole) (a7 : Memref sig .tc .vmem S128x1 .f32) (h7 : a7.IsWhole)
    (a8 : Memref sig .tc .vmem S8192x128 .f32) (h8 : a8.IsWhole) (a9 : Memref sig .tc .vmem S128x8192 .f32) (h9 : a9.IsWhole)
    (x0 : Vec F S1x64x8192 .f32) (x1 : Vec F S1x1x8192 .i32) (x2 : Vec F S64x64 .f32) (x3 : Vec F S64x1 .f32) (x4 : Vec F S1x64x128 .f32) (x5 : Vec F S128x1 .f32)

/-- The first slot's one store covers the accumulator. -/
theorem first_cover (hc1 : isFirst i) (hc2 : ¬isLater i) (hc3 : ¬isLast i) (y : S128x8192.Idx) :
    ∃ pc ∈ (runFirst c i a2 h2 a3 h3 a4 h4 a5 h5 a6 h6 a7 h7 a8 h8 a9 h9 hc1 hc2 hc3 x0 x1 x2 x3 x4 x5).1, y ∈ pc.1.set :=
  View.cover_of_tiledL (runFirst c i a2 h2 a3 h3 a4 h4 a5 h5 a6 h6 a7 h7 a8 h8 a9 h9 hc1 hc2 hc3 x0 x1 x2 x3 x4 x5).1 S128x8192.size (by sl_kernel_rfl) y

/-- After a first slot the accumulator holds the slot's product. -/
theorem first_canon (hc1 : isFirst i) (hc2 : ¬isLater i) (hc3 : ¬isLast i) :
    View.canon (runFirst c i a2 h2 a3 h3 a4 h4 a5 h5 a6 h6 a7 h7 a8 h8 a9 h9 hc1 hc2 hc3 x0 x1 x2 x3 x4 x5).1 = k0_pay2 x0 x2 x3 x1 x4 := by
  unfold runFirst; dsimp only; sl_unfold_words
  rw [View.canon_unit_zero zeros2]
  simp only [View.readAt_eq_ld, h2.read_unread, h3.read_unread, h4.read_unread, h5.read_unread, h6.read_unread,
    View.ld_unit_zero (S := S1x64x8192) zeros3, View.ld_unit_zero (S := S1x1x8192) zeros3,
    View.ld_unit_zero (S := S1x64x128) zeros3, View.ld_unit_zero (S := S64x64) zeros2, View.ld_unit_zero (S := S64x1) zeros2]

/-- A middle slot's one store covers the accumulator. -/
theorem mid_cover (hc1 : ¬isFirst i) (hc2 : isLater i) (hc3 : ¬isLast i) (xs : Vec F S128x8192 .f32) (y : S128x8192.Idx) :
    ∃ pc ∈ (runMid c i a2 h2 a3 h3 a4 h4 a5 h5 a6 h6 a7 h7 a8 h8 a9 h9 hc1 hc2 hc3 x0 x1 x2 x3 x4 x5 xs).1, y ∈ pc.1.set :=
  View.cover_of_tiledL (runMid c i a2 h2 a3 h3 a4 h4 a5 h5 a6 h6 a7 h7 a8 h8 a9 h9 hc1 hc2 hc3 x0 x1 x2 x3 x4 x5 xs).1 S128x8192.size (by sl_kernel_rfl) y

/-- After a middle slot the accumulator holds what it held plus the slot's product. -/
theorem mid_canon (hc1 : ¬isFirst i) (hc2 : isLater i) (hc3 : ¬isLast i) (xs : Vec F S128x8192 .f32) :
    View.canon (runMid c i a2 h2 a3 h3 a4 h4 a5 h5 a6 h6 a7 h7 a8 h8 a9 h9 hc1 hc2 hc3 x0 x1 x2 x3 x4 x5 xs).1 = k0_pay3 x0 x2 x3 x1 x4 xs := by
  unfold runMid; dsimp only; sl_unfold_words
  rw [View.canon_unit_zero zeros2]
  simp only [View.readAt_eq_ld, h2.read_unread, h3.read_unread, h4.read_unread, h5.read_unread, h6.read_unread, h9.read_unread,
    View.ld_unit_zero (S := S1x64x8192) zeros3, View.ld_unit_zero (S := S1x1x8192) zeros3,
    View.ld_unit_zero (S := S1x64x128) zeros3, View.ld_unit_zero (S := S64x64) zeros2, View.ld_unit_zero (S := S64x1) zeros2,
    View.ld_unit_zero (S := S128x8192) zeros2]

/-- A last slot's store into the accumulator covers it, -/
theorem last_cover_acc (hc1 : ¬isFirst i) (hc2 : isLater i) (hc3 : isLast i) (xs : Vec F S128x8192 .f32) (y : S128x8192.Idx) :
    ∃ pc ∈ (runLast c i a2 h2 a3 h3 a4 h4 a5 h5 a6 h6 a7 h7 a8 h8 a9 h9 hc1 hc2 hc3 x0 x1 x2 x3 x4 x5 xs).2.1, y ∈ pc.1.set :=
  View.cover_of_tiledL (runLast c i a2 h2 a3 h3 a4 h4 a5 h5 a6 h6 a7 h7 a8 h8 a9 h9 hc1 hc2 hc3 x0 x1 x2 x3 x4 x5 xs).2.1 S128x8192.size (by sl_kernel_rfl) y

/-- and its store into the output block covers that. -/
theorem last_cover_out (hc1 : ¬isFirst i) (hc2 : isLater i) (hc3 : isLast i) (xs : Vec F S128x8192 .f32) (y : S8192x128.Idx) :
    ∃ pc ∈ (runLast c i a2 h2 a3 h3 a4 h4 a5 h5 a6 h6 a7 h7 a8 h8 a9 h9 hc1 hc2 hc3 x0 x1 x2 x3 x4 x5 xs).1, y ∈ pc.1.set :=
  View.cover_of_tiledL (runLast c i a2 h2 a3 h3 a4 h4 a5 h5 a6 h6 a7 h7 a8 h8 a9 h9 hc1 hc2 hc3 x0 x1 x2 x3 x4 x5 xs).1 S8192x128.size (by sl_kernel_rfl) y

/-- After a last slot the accumulator holds what it held plus the slot's product, -/
theorem last_canon_acc (hc1 : ¬isFirst i) (hc2 : isLater i) (hc3 : isLast i) (xs : Vec F S128x8192 .f32) :
    View.canon (runLast c i a2 h2 a3 h3 a4 h4 a5 h5 a6 h6 a7 h7 a8 h8 a9 h9 hc1 hc2 hc3 x0 x1 x2 x3 x4 x5 xs).2.1 = k0_pay3 x0 x2 x3 x1 x4 xs := by
  unfold runLast; dsimp only; sl_unfold_words
  rw [View.canon_unit_zero zeros2]
  simp only [View.readAt_eq_ld, h2.read_unread, h3.read_unread, h4.read_unread, h5.read_unread, h6.read_unread, h9.read_unread,
    View.ld_unit_zero (S := S1x64x8192) zeros3, View.ld_unit_zero (S := S1x1x8192) zeros3,
    View.ld_unit_zero (S := S1x64x128) zeros3, View.ld_unit_zero (S := S64x64) zeros2, View.ld_unit_zero (S := S64x1) zeros2,
    View.ld_unit_zero (S := S128x8192) zeros2]

/-- and the output block holds the epilogue of that sum: bias added, clamped at zero, transposed. -/
theorem last_canon_out (hc1 : ¬isFirst i) (hc2 : isLater i) (hc3 : isLast i) (xs : Vec F S128x8192 .f32) :
    View.canon (runLast c i a2 h2 a3 h3 a4 h4 a5 h5 a6 h6 a7 h7 a8 h8 a9 h9 hc1 hc2 hc3 x0 x1 x2 x3 x4 x5 xs).1 = k0_pay4 (k0_pay3 x0 x2 x3 x1 x4 xs) x5 := by
  unfold runLast; dsimp only; sl_unfold_words
  rw [View.canon_unit_zero zeros2, View.readCov_unit_zero _ zeros2]
  simp only [View.readAt_eq_ld, h2.read_unread, h3.read_unread, h4.read_unread, h5.read_unread, h6.read_unread, h7.read_unread, h9.read_unread,
    View.ld_unit_zero (S := S1x64x8192) zeros3, View.ld_unit_zero (S := S1x1x8192) zeros3,
    View.ld_unit_zero (S := S1x64x128) zeros3, View.ld_unit_zero (S := S64x64) zeros2, View.ld_unit_zero (S := S64x1) zeros2,
    View.ld_unit_zero (S := S128x8192) zeros2, View.ld_unit_zero (S := S128x1) zeros2]

end

end Cert.Kernel.Body

end
-- ==== Proof.WordAccum.lean ====
/-
  The accumulator across the grid, and the frame of the whole program.

  Point `t` of the grid [4, 5] works on sample block `t / 5` and slot `t % 5`. After point `t` the accumulator holds
  the slot's product when `t % 5 = 0`, and otherwise what it held after point `t - 1` plus the slot's product: a
  running sum over the slots of one sample block. At a last slot the output block is the epilogue of that running sum.
  With this stated as the pipeline's proof data, the body's three triples (first, middle, last slot) give the body
  obligation at every point, and the launch theorem gives the run: the program terminates, faults nowhere, leaves its
  argument arrays unchanged, and the output array ends as the blocks written back at the last slots.
-/
import proofs.«151459_g5703716569288_cont_9to1c4b_55_33_alg».proof.Proof.WordPieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sum -/

/-- What the accumulator holds after the body at point `n`. -/
def accAfter (c : Dev nD) : (n : ℕ) → n < cfg0.N → Vec F S128x8192 .f32
  | 0, hn => k0_pay2 (iblk m c 0 ⟨0, hn⟩) (iblk m c 2 ⟨0, hn⟩) (iblk m c 3 ⟨0, hn⟩) (iblk m c 1 ⟨0, hn⟩) (iblk m c 4 ⟨0, hn⟩)
  | n + 1, hn =>
    if (n + 1) % 5 = 0 then k0_pay2 (iblk m c 0 ⟨n + 1, hn⟩) (iblk m c 2 ⟨n + 1, hn⟩) (iblk m c 3 ⟨n + 1, hn⟩) (iblk m c 1 ⟨n + 1, hn⟩) (iblk m c 4 ⟨n + 1, hn⟩)
    else k0_pay3 (iblk m c 0 ⟨n + 1, hn⟩) (iblk m c 2 ⟨n + 1, hn⟩) (iblk m c 3 ⟨n + 1, hn⟩) (iblk m c 1 ⟨n + 1, hn⟩) (iblk m c 4 ⟨n + 1, hn⟩) (accAfter c n (Nat.lt_of_succ_lt hn))

theorem accAfter_first (c : Dev nD) (t : Fin cfg0.N) (h0 : t.val % 5 = 0) :
    accAfter m c t.val t.isLt = k0_pay2 (iblk m c 0 t) (iblk m c 2 t) (iblk m c 3 t) (iblk m c 1 t) (iblk m c 4 t) := by
  obtain ⟨n, hn⟩ := t
  cases n with
  | zero => rfl
  | succ n => exact if_pos h0

theorem accAfter_later (c : Dev nD) (t : Fin cfg0.N) (h0 : ¬t.val % 5 = 0) :
    accAfter m c t.val t.isLt
      = k0_pay3 (iblk m c 0 t) (iblk m c 2 t) (iblk m c 3 t) (iblk m c 1 t) (iblk m c 4 t) (accAfter m c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point what the launch hands over (the accumulator at
    anything); afterwards the accumulator at the running sum after the point before. -/
def PhiS (c : Dev nD) : (n : ℕ) → n ≤ cfg0.N → sProp 𝕄
  | 0, _ => Pipeline.ΦA spec0 c
  | n + 1, hn => iprop(iprop(owns (c : Thread nD τ) accM fullShare (accAfter m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAfter m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAfter m c (n - 1) (by omega))) ∗ (∃ r, prngReg c r)) := by
  cases n with
  | zero => exact absurd rfl hz
  | succ n => rfl

/-! ## The pipeline's proof data -/

/-- On core `c`: the arrays as the region finds them; after the body each input's buffer at its block, the output's
    at the epilogue of the running sum (read only at the last slots, where it is written back); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (accAfter m c t.val t.isLt) (iblk m c 5 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) :
    (dats m 0 c).after 6 t = k0_pay4 (accAfter m c t.val t.isLt) (iblk m c 5 t) := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 4800000 in
/-- The body at any point. The slot coordinate selects the triple; the invariant hands the body the accumulator at the
    running sum so far (at anything before the first point) and takes it back at this point's running sum; away from the
    last slots the output's buffer goes back as found, at the last slots it goes back at the epilogue. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  rw [show (dats m 0 c).leavesExact 0 t = owns (c : Thread nD τ) (ms0 t) fullShare ((dats m 0 c).after 0 t) from by
    unfold Dat.leavesExact; rw [live_in 0 (by decide) t], after_in0]
  rw [show (dats m 0 c).leavesExact 1 t = owns (c : Thread nD τ) (ms1 t) fullShare ((dats m 0 c).after 1 t) from by
    unfold Dat.leavesExact; rw [live_in 1 (by decide) t], after_in1]
  rw [show (dats m 0 c).leavesExact 2 t = owns (c : Thread nD τ) (ms2 t) fullShare ((dats m 0 c).after 2 t) from by
    unfold Dat.leavesExact; rw [live_in 2 (by decide) t], after_in2]
  rw [show (dats m 0 c).leavesExact 3 t = owns (c : Thread nD τ) (ms3 t) fullShare ((dats m 0 c).after 3 t) from by
    unfold Dat.leavesExact; rw [live_in 3 (by decide) t], after_in3]
  rw [show (dats m 0 c).leavesExact 4 t = owns (c : Thread nD τ) (ms4 t) fullShare ((dats m 0 c).after 4 t) from by
    unfold Dat.leavesExact; rw [live_in 4 (by decide) t], after_in4]
  rw [show (dats m 0 c).leavesExact 5 t = owns (c : Thread nD τ) (ms5 t) fullShare ((dats m 0 c).after 5 t) from by
    unfold Dat.leavesExact; rw [live_in 5 (by decide) t], after_in5]
  by_cases h0 : t.val % 5 = 0
  · have h4 : ¬t.val % 5 = 4 := by omega
    have hc1 : isFirst (grid0.coords t) := (isFirst_iff t).mpr h0
    have hc2 : ¬isLater (grid0.coords t) := fun h => (isLater_iff t).mp h h0
    have hc3 : ¬isLast (grid0.coords t) := fun h => h4 ((isLast_iff t).mp h)
    rw [Dat.leavesExact_idle (dats m 0 c) 6 t (idle_out t h4) (noFlush_out t h4)]
    rw [accAfter_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hc1 hc2 hc3 (iblk m c 0 t) (iblk m c 1 t) (iblk m c 2 t) (iblk m c 3 t) (iblk m c 4 t) (iblk m c 5 t)).2 ((dats m 0 c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro
          exact (View.read_writes_eq_canon _ _ _ (first_cover c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3)).trans
            (first_canon c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hc1 hc2 hc3 (iblk m c 0 t) (iblk m c 1 t) (iblk m c 2 t) (iblk m c 3 t) (iblk m c 4 t) (iblk m c 5 t)).2 ((dats m 0 c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro
          exact (View.read_writes_eq_canon _ _ _ (first_cover c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3)).trans
            (first_canon c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hc1 : ¬isFirst (grid0.coords t) := fun h => h0 ((isFirst_iff t).mp h)
    have hc2 : isLater (grid0.coords t) := (isLater_iff t).mpr h0
    rw [accAfter_later m c t h0]
    rw [PhiS_castSucc m c t, PhiS_pos m c _ _ hz]
    by_cases h4 : t.val % 5 = 4
    · have hc3 : isLast (grid0.coords t) := (isLast_iff t).mpr h4
      rw [show (dats m 0 c).leavesExact 6 t = owns (c : Thread nD τ) (ms6 t) fullShare ((dats m 0 c).after 6 t) from by
        unfold Dat.leavesExact; rw [live_out t h4], after_out, accAfter_later m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hc1 hc2 hc3 (iblk m c 0 t) (iblk m c 1 t) (iblk m c 2 t) (iblk m c 3 t) (iblk m c 4 t) (iblk m c 5 t) (accAfter m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HS Hg]
      · isplitl [HS]
        · unfold owns; iexists _; isplitr
          swap; · iexact HS
          ipureintro
          exact (View.read_writes_eq_canon _ _ _ (last_cover_acc c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)).trans
            (last_canon_acc c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact (View.read_writes_eq_canon _ _ _ (last_cover_out c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)).trans
        (last_canon_out c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)
    · have hc3 : ¬isLast (grid0.coords t) := fun h => h4 ((isLast_iff t).mp h)
      rw [Dat.leavesExact_idle (dats m 0 c) 6 t (idle_out t h4) (noFlush_out t h4)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hc1 hc2 hc3 (iblk m c 0 t) (iblk m c 1 t) (iblk m c 2 t) (iblk m c 3 t) (iblk m c 4 t) (iblk m c 5 t) (accAfter m c (t.val - 1) (Nat.lt_of_le_of_lt (Nat.sub_le _ _) t.isLt))).2 ((dats m 0 c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro
          exact (View.read_writes_eq_canon _ _ _ (mid_cover c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)).trans
            (mid_canon c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the running sum's value is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA_eq]
  iintro ⟨HS, Hg⟩
  isplitl [HS]
  · iexists _; iexact HS
  iexact Hg

/-! ## The run and the frame -/

set_option backward.isDefEq.respectTransparency.types false in
/-- Every weakly fair execution of the program terminates; every final state has each array of the pipeline at what
    the library computes from the proof data, and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.Conds.lean ====
/-
  The slot coordinate of a grid point decides which of the body's three guarded blocks run: the first slot
  (coordinate 0) overwrites the accumulator with the slot's product, every later slot adds its product to it, and
  the last slot (coordinate 4) also adds the bias, clamps at zero and writes the transposed block out. With the
  grid [4, 5] read in row-major order, point `t` has slot coordinate `t % 5`.
-/
import proofs.«151459_g5703716569288_cont_9to1c4b_55_33_alg».proof.Proof.Gen.KernelIdeal.Launch
import proofs.«151459_g5703716569288_cont_9to1c4b_55_33_alg».proof.Proof.Gen.KernelIdeal.Skeleton
import proofs.«151459_g5703716569288_cont_9to1c4b_55_33_alg».proof.Proof.Gen.KernelIdeal.Points
import proofs.«151459_g5703716569288_cont_9to1c4b_55_33_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three guards, from the slot coordinate -/

/-- "This is the first slot": the guard of the block that overwrites the accumulator. -/
abbrev isFirst (i : grid0.Coords) : Prop :=
  (Scalar.cmpi .ne (Scalar.extui (Scalar.cmpi .eq (BitVec.ofNat 32 (i 1).val) 0#32)) 0#32) = 1#1
/-- "This is a later slot": the guard of the block that adds to the accumulator. -/
abbrev isLater (i : grid0.Coords) : Prop :=
  (Scalar.cmpi .ne (Scalar.extui (Scalar.cmpi .ne (BitVec.ofNat 32 (i 1).val) 0#32)) 0#32) = 1#1
/-- "This is the last slot": the guard of the block that writes the output. -/
abbrev isLast (i : grid0.Coords) : Prop := k0_cond3 i = 1#1

theorem isFirst_iff : ∀ t : Fin cfg0.N, isFirst (grid0.coords t) ↔ t.val % 5 = 0 :=
  (by decide +kernel : ∀ t : Fin grid0.N, isFirst (grid0.coords t) ↔ t.val % 5 = 0)
theorem isLater_iff : ∀ t : Fin cfg0.N, isLater (grid0.coords t) ↔ ¬ t.val % 5 = 0 :=
  (by decide +kernel : ∀ t : Fin grid0.N, isLater (grid0.coords t) ↔ ¬ t.val % 5 = 0)
theorem isLast_iff : ∀ t : Fin cfg0.N, isLast (grid0.coords t) ↔ t.val % 5 = 4 :=
  (by decide +kernel : ∀ t : Fin grid0.N, isLast (grid0.coords t) ↔ t.val % 5 = 4)

/-! ## Where the output window is idle -/

theorem live_in (w : Fin 7) (hw : w.val < 6) : ∀ t : Fin cfg0.N, cfg0.idle w (grid0.coords t) = false := by
  revert w; decide +kernel
/-- Away from the last slot the output window is idle, -/
theorem idle_out : ∀ t : Fin cfg0.N, ¬ t.val % 5 = 4 → cfg0.idle 6 (grid0.coords t) = true := by decide +kernel
/-- and its block is not written back there; -/
theorem noFlush_out : ∀ t : Fin cfg0.N, ¬ t.val % 5 = 4 → (cfg0.win 6).flush t = false := by decide +kernel
/-- at the last slot it is live. -/
theorem live_out : ∀ t : Fin cfg0.N, t.val % 5 = 4 → cfg0.idle 6 (grid0.coords t) = false := by decide +kernel

/-! ## The memrefs the body is called with -/

abbrev ms0 (t : Fin cfg0.N) : Memref sig .tc .vmem S1x64x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x8192 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8192x128 .f32 := win0_6.stage (cfg0.slots t 6)
abbrev hs6 (t : Fin cfg0.N) : (ms6 t).IsWhole := hstage0_6 ((cfg0.slots t 6).cast nbuf0_6)
/-- The accumulator: a whole scoped buffer of the kernel's own. -/
abbrev accM : Memref sig .tc .vmem S128x8192 .f32 := Memref.whole cc0_scratch0
/-- The accumulator and one staging buffer of the output window as views: contents are stated through them. -/
abbrev accV : View sig .tc .vmem S128x8192 .f32 := accM.view
abbrev outV : View sig .tc .vmem S8192x128 .f32 := (Memref.whole cc0_stg6_0 : Memref sig .tc .vmem S8192x128 .f32).view

/-- What the launch hands the region beside the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.RunFirst.lean ====
/-
  The body at a first slot. It reads the five blocks of the slot, and overwrites the accumulator with the slot's
  product; the output block is left as found. The accumulator may hold anything on entry.
-/
import proofs.«151459_g5703716569288_cont_9to1c4b_55_33_alg».proof.Proof.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the accumulator ends with at a first slot, with the body's triple: the inputs and the output block are
    handed back as they were. -/
noncomputable def runFirst (c : Dev nD) (i : grid0.Coords)
    (a2 : Memref sig .tc .vmem S1x64x8192 .f32) (h2 : a2.IsWhole) (a3 : Memref sig .tc .vmem S1x1x8192 .i32) (h3 : a3.IsWhole)
    (a4 : Memref sig .tc .vmem S64x64 .f32) (h4 : a4.IsWhole) (a5 : Memref sig .tc .vmem S64x1 .f32) (h5 : a5.IsWhole)
    (a6 : Memref sig .tc .vmem S1x64x128 .f32) (h6 : a6.IsWhole) (a7 : Memref sig .tc .vmem S128x1 .f32) (h7 : a7.IsWhole)
    (a8 : Memref sig .tc .vmem S8192x128 .f32) (h8 : a8.IsWhole) (a9 : Memref sig .tc .vmem S128x8192 .f32) (h9 : a9.IsWhole)
    (hc1 : isFirst i) (hc2 : ¬isLater i) (hc3 : ¬isLast i)
    (x0 : Vec F S1x64x8192 .f32) (x1 : Vec F S1x1x8192 .i32) (x2 : Vec F S64x64 .f32) (x3 : Vec F S64x1 .f32) (x4 : Vec F S1x64x128 .f32) (x5 : Vec F S128x1 .f32) :
    { LS : List (View.Piece (Elt F) S128x8192 .f32) //
      ∀ (xo : Vec F S8192x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, fun xo E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    sl_exec (disch := first | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

end Cert.KernelIdeal.Body

end
-- ==== Proof.RunMid.lean ====
/-
  The body at a slot that is neither first nor last. It reads the slot's blocks and the accumulator, and stores back
  the accumulator plus the slot's product; the output block is left as found.
-/
import proofs.«151459_g5703716569288_cont_9to1c4b_55_33_alg».proof.Proof.RunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the accumulator ends with at a middle slot, entered with the accumulator at `xs`. -/
noncomputable def runMid (c : Dev nD) (i : grid0.Coords)
    (a2 : Memref sig .tc .vmem S1x64x8192 .f32) (h2 : a2.IsWhole) (a3 : Memref sig .tc .vmem S1x1x8192 .i32) (h3 : a3.IsWhole)
    (a4 : Memref sig .tc .vmem S64x64 .f32) (h4 : a4.IsWhole) (a5 : Memref sig .tc .vmem S64x1 .f32) (h5 : a5.IsWhole)
    (a6 : Memref sig .tc .vmem S1x64x128 .f32) (h6 : a6.IsWhole) (a7 : Memref sig .tc .vmem S128x1 .f32) (h7 : a7.IsWhole)
    (a8 : Memref sig .tc .vmem S8192x128 .f32) (h8 : a8.IsWhole) (a9 : Memref sig .tc .vmem S128x8192 .f32) (h9 : a9.IsWhole)
    (hc1 : ¬isFirst i) (hc2 : isLater i) (hc3 : ¬isLast i)
    (x0 : Vec F S1x64x8192 .f32) (x1 : Vec F S1x1x8192 .i32) (x2 : Vec F S64x64 .f32) (x3 : Vec F S64x1 .f32) (x4 : Vec F S1x64x128 .f32) (x5 : Vec F S128x1 .f32) (xs : Vec F S128x8192 .f32) :
    { LS : List (View.Piece (Elt F) S128x8192 .f32) //
      ∀ (xo : Vec F S8192x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, fun xo E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6; obtain rfl := h9.eq_unread hfs
    sl_exec (disch := first | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

end Cert.KernelIdeal.Body

end
-- ==== Proof.RunLast.lean ====
/-
  The body at a last slot. It adds the slot's product to the accumulator, then reads the accumulator back, adds the
  bias column, clamps at zero, transposes, and stores the result over the whole output block. The output block may
  hold anything on entry.
-/
import proofs.«151459_g5703716569288_cont_9to1c4b_55_33_alg».proof.Proof.RunMid

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the output block and the accumulator end with at a last slot, entered with the accumulator at `xs`. -/
noncomputable def runLast (c : Dev nD) (i : grid0.Coords)
    (a2 : Memref sig .tc .vmem S1x64x8192 .f32) (h2 : a2.IsWhole) (a3 : Memref sig .tc .vmem S1x1x8192 .i32) (h3 : a3.IsWhole)
    (a4 : Memref sig .tc .vmem S64x64 .f32) (h4 : a4.IsWhole) (a5 : Memref sig .tc .vmem S64x1 .f32) (h5 : a5.IsWhole)
    (a6 : Memref sig .tc .vmem S1x64x128 .f32) (h6 : a6.IsWhole) (a7 : Memref sig .tc .vmem S128x1 .f32) (h7 : a7.IsWhole)
    (a8 : Memref sig .tc .vmem S8192x128 .f32) (h8 : a8.IsWhole) (a9 : Memref sig .tc .vmem S128x8192 .f32) (h9 : a9.IsWhole)
    (hc1 : ¬isFirst i) (hc2 : isLater i) (hc3 : isLast i)
    (x0 : Vec F S1x64x8192 .f32) (x1 : Vec F S1x1x8192 .i32) (x2 : Vec F S64x64 .f32) (x3 : Vec F S64x1 .f32) (x4 : Vec F S1x64x128 .f32) (x5 : Vec F S128x1 .f32) (xs : Vec F S128x8192 .f32) :
    Σ' (LO : List (View.Piece (Elt F) S8192x128 .f32)), { LS : List (View.Piece (Elt F) S128x8192 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc0__fused_kernel i a2 h2 a3 h3 a4 h4 a5 h5 a6 h6 a7 h7 a8 h8 a9 h9) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h9.eq_unread hfs
    sl_exec (disch := first | exact hc1 | exact hc2 | exact hc3)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    iexists _; iexact HS

end Cert.KernelIdeal.Body

end
-- ==== Proof.Pieces.lean ====
/-
  What the body's stores leave, read back. At a first slot the accumulator holds the slot's product; at a later slot
  it holds what it held plus the slot's product; at a last slot the output block holds the transposed, clamped sum of
  that accumulator and the bias column. Each is one store over the whole buffer, so the stored value is what a later
  read finds, whatever the buffer held before.
-/
import proofs.«151459_g5703716569288_cont_9to1c4b_55_33_alg».proof.Proof.RunLast
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := by funext a; fin_cases a <;> rfl
theorem zeros3 : (![0, 0, 0] : Fin 3 → Nat) = fun _ => 0 := by funext a; fin_cases a <;> rfl

section
variable (c : Dev nD) (i : grid0.Coords)
    (a2 : Memref sig .tc .vmem S1x64x8192 .f32) (h2 : a2.IsWhole) (a3 : Memref sig .tc .vmem S1x1x8192 .i32) (h3 : a3.IsWhole)
    (a4 : Memref sig .tc .vmem S64x64 .f32) (h4 : a4.IsWhole) (a5 : Memref sig .tc .vmem S64x1 .f32) (h5 : a5.IsWhole)
    (a6 : Memref sig .tc .vmem S1x64x128 .f32) (h6 : a6.IsWhole) (a7 : Memref sig .tc .vmem S128x1 .f32) (h7 : a7.IsWhole)
    (a8 : Memref sig .tc .vmem S8192x128 .f32) (h8 : a8.IsWhole) (a9 : Memref sig .tc .vmem S128x8192 .f32) (h9 : a9.IsWhole)
    (x0 : Vec F S1x64x8192 .f32) (x1 : Vec F S1x1x8192 .i32) (x2 : Vec F S64x64 .f32) (x3 : Vec F S64x1 .f32) (x4 : Vec F S1x64x128 .f32) (x5 : Vec F S128x1 .f32)

/-- The first slot's one store covers the accumulator. -/
theorem first_cover (hc1 : isFirst i) (hc2 : ¬isLater i) (hc3 : ¬isLast i) (y : S128x8192.Idx) :
    ∃ pc ∈ (runFirst c i a2 h2 a3 h3 a4 h4 a5 h5 a6 h6 a7 h7 a8 h8 a9 h9 hc1 hc2 hc3 x0 x1 x2 x3 x4 x5).1, y ∈ pc.1.set :=
  View.cover_of_tiledL (runFirst c i a2 h2 a3 h3 a4 h4 a5 h5 a6 h6 a7 h7 a8 h8 a9 h9 hc1 hc2 hc3 x0 x1 x2 x3 x4 x5).1 S128x8192.size (by sl_kernel_rfl) y

/-- After a first slot the accumulator holds the slot's product. -/
theorem first_canon (hc1 : isFirst i) (hc2 : ¬isLater i) (hc3 : ¬isLast i) :
    View.canon (runFirst c i a2 h2 a3 h3 a4 h4 a5 h5 a6 h6 a7 h7 a8 h8 a9 h9 hc1 hc2 hc3 x0 x1 x2 x3 x4 x5).1 = k0_pay2 x0 x2 x3 x1 x4 := by
  unfold runFirst; dsimp only; sl_unfold_words
  rw [View.canon_unit_zero zeros2]
  simp only [View.readAt_eq_ld, h2.read_unread, h3.read_unread, h4.read_unread, h5.read_unread, h6.read_unread,
    View.ld_unit_zero (S := S1x64x8192) zeros3, View.ld_unit_zero (S := S1x1x8192) zeros3,
    View.ld_unit_zero (S := S1x64x128) zeros3, View.ld_unit_zero (S := S64x64) zeros2, View.ld_unit_zero (S := S64x1) zeros2]

/-- A middle slot's one store covers the accumulator. -/
theorem mid_cover (hc1 : ¬isFirst i) (hc2 : isLater i) (hc3 : ¬isLast i) (xs : Vec F S128x8192 .f32) (y : S128x8192.Idx) :
    ∃ pc ∈ (runMid c i a2 h2 a3 h3 a4 h4 a5 h5 a6 h6 a7 h7 a8 h8 a9 h9 hc1 hc2 hc3 x0 x1 x2 x3 x4 x5 xs).1, y ∈ pc.1.set :=
  View.cover_of_tiledL (runMid c i a2 h2 a3 h3 a4 h4 a5 h5 a6 h6 a7 h7 a8 h8 a9 h9 hc1 hc2 hc3 x0 x1 x2 x3 x4 x5 xs).1 S128x8192.size (by sl_kernel_rfl) y

/-- After a middle slot the accumulator holds what it held plus the slot's product. -/
theorem mid_canon (hc1 : ¬isFirst i) (hc2 : isLater i) (hc3 : ¬isLast i) (xs : Vec F S128x8192 .f32) :
    View.canon (runMid c i a2 h2 a3 h3 a4 h4 a5 h5 a6 h6 a7 h7 a8 h8 a9 h9 hc1 hc2 hc3 x0 x1 x2 x3 x4 x5 xs).1 = k0_pay3 x0 x2 x3 x1 x4 xs := by
  unfold runMid; dsimp only; sl_unfold_words
  rw [View.canon_unit_zero zeros2]
  simp only [View.readAt_eq_ld, h2.read_unread, h3.read_unread, h4.read_unread, h5.read_unread, h6.read_unread, h9.read_unread,
    View.ld_unit_zero (S := S1x64x8192) zeros3, View.ld_unit_zero (S := S1x1x8192) zeros3,
    View.ld_unit_zero (S := S1x64x128) zeros3, View.ld_unit_zero (S := S64x64) zeros2, View.ld_unit_zero (S := S64x1) zeros2,
    View.ld_unit_zero (S := S128x8192) zeros2]

/-- A last slot's store into the accumulator covers it, -/
theorem last_cover_acc (hc1 : ¬isFirst i) (hc2 : isLater i) (hc3 : isLast i) (xs : Vec F S128x8192 .f32) (y : S128x8192.Idx) :
    ∃ pc ∈ (runLast c i a2 h2 a3 h3 a4 h4 a5 h5 a6 h6 a7 h7 a8 h8 a9 h9 hc1 hc2 hc3 x0 x1 x2 x3 x4 x5 xs).2.1, y ∈ pc.1.set :=
  View.cover_of_tiledL (runLast c i a2 h2 a3 h3 a4 h4 a5 h5 a6 h6 a7 h7 a8 h8 a9 h9 hc1 hc2 hc3 x0 x1 x2 x3 x4 x5 xs).2.1 S128x8192.size (by sl_kernel_rfl) y

/-- and its store into the output block covers that. -/
theorem last_cover_out (hc1 : ¬isFirst i) (hc2 : isLater i) (hc3 : isLast i) (xs : Vec F S128x8192 .f32) (y : S8192x128.Idx) :
    ∃ pc ∈ (runLast c i a2 h2 a3 h3 a4 h4 a5 h5 a6 h6 a7 h7 a8 h8 a9 h9 hc1 hc2 hc3 x0 x1 x2 x3 x4 x5 xs).1, y ∈ pc.1.set :=
  View.cover_of_tiledL (runLast c i a2 h2 a3 h3 a4 h4 a5 h5 a6 h6 a7 h7 a8 h8 a9 h9 hc1 hc2 hc3 x0 x1 x2 x3 x4 x5 xs).1 S8192x128.size (by sl_kernel_rfl) y

/-- After a last slot the accumulator holds what it held plus the slot's product, -/
theorem last_canon_acc (hc1 : ¬isFirst i) (hc2 : isLater i) (hc3 : isLast i) (xs : Vec F S128x8192 .f32) :
    View.canon (runLast c i a2 h2 a3 h3 a4 h4 a5 h5 a6 h6 a7 h7 a8 h8 a9 h9 hc1 hc2 hc3 x0 x1 x2 x3 x4 x5 xs).2.1 = k0_pay3 x0 x2 x3 x1 x4 xs := by
  unfold runLast; dsimp only; sl_unfold_words
  rw [View.canon_unit_zero zeros2]
  simp only [View.readAt_eq_ld, h2.read_unread, h3.read_unread, h4.read_unread, h5.read_unread, h6.read_unread, h9.read_unread,
    View.ld_unit_zero (S := S1x64x8192) zeros3, View.ld_unit_zero (S := S1x1x8192) zeros3,
    View.ld_unit_zero (S := S1x64x128) zeros3, View.ld_unit_zero (S := S64x64) zeros2, View.ld_unit_zero (S := S64x1) zeros2,
    View.ld_unit_zero (S := S128x8192) zeros2]

/-- and the output block holds the epilogue of that sum: bias added, clamped at zero, transposed. -/
theorem last_canon_out (hc1 : ¬isFirst i) (hc2 : isLater i) (hc3 : isLast i) (xs : Vec F S128x8192 .f32) :
    View.canon (runLast c i a2 h2 a3 h3 a4 h4 a5 h5 a6 h6 a7 h7 a8 h8 a9 h9 hc1 hc2 hc3 x0 x1 x2 x3 x4 x5 xs).1 = k0_pay4 (k0_pay3 x0 x2 x3 x1 x4 xs) x5 := by
  unfold runLast; dsimp only; sl_unfold_words
  rw [View.canon_unit_zero zeros2, View.readCov_unit_zero _ zeros2]
  simp only [View.readAt_eq_ld, h2.read_unread, h3.read_unread, h4.read_unread, h5.read_unread, h6.read_unread, h7.read_unread, h9.read_unread,
    View.ld_unit_zero (S := S1x64x8192) zeros3, View.ld_unit_zero (S := S1x1x8192) zeros3,
    View.ld_unit_zero (S := S1x64x128) zeros3, View.ld_unit_zero (S := S64x64) zeros2, View.ld_unit_zero (S := S64x1) zeros2,
    View.ld_unit_zero (S := S128x8192) zeros2, View.ld_unit_zero (S := S128x1) zeros2]

end

end Cert.KernelIdeal.Body

end
-- ==== Proof.Accum.lean ====
/-
  The accumulator across the grid, and the frame of the whole program.

  Point `t` of the grid [4, 5] works on sample block `t / 5` and slot `t % 5`. After point `t` the accumulator holds
  the slot's product when `t % 5 = 0`, and otherwise what it held after point `t - 1` plus the slot's product: a
  running sum over the slots of one sample block. At a last slot the output block is the epilogue of that running sum.
  With this stated as the pipeline's proof data, the body's three triples (first, middle, last slot) give the body
  obligation at every point, and the launch theorem gives the run: the program terminates, faults nowhere, leaves its
  argument arrays unchanged, and the output array ends as the blocks written back at the last slots.
-/
import proofs.«151459_g5703716569288_cont_9to1c4b_55_33_alg».proof.Proof.Pieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running sum -/

/-- What the accumulator holds after the body at point `n`. -/
def accAfter (c : Dev nD) : (n : ℕ) → n < cfg0.N → Vec F S128x8192 .f32
  | 0, hn => k0_pay2 (iblk m c 0 ⟨0, hn⟩) (iblk m c 2 ⟨0, hn⟩) (iblk m c 3 ⟨0, hn⟩) (iblk m c 1 ⟨0, hn⟩) (iblk m c 4 ⟨0, hn⟩)
  | n + 1, hn =>
    if (n + 1) % 5 = 0 then k0_pay2 (iblk m c 0 ⟨n + 1, hn⟩) (iblk m c 2 ⟨n + 1, hn⟩) (iblk m c 3 ⟨n + 1, hn⟩) (iblk m c 1 ⟨n + 1, hn⟩) (iblk m c 4 ⟨n + 1, hn⟩)
    else k0_pay3 (iblk m c 0 ⟨n + 1, hn⟩) (iblk m c 2 ⟨n + 1, hn⟩) (iblk m c 3 ⟨n + 1, hn⟩) (iblk m c 1 ⟨n + 1, hn⟩) (iblk m c 4 ⟨n + 1, hn⟩) (accAfter c n (Nat.lt_of_succ_lt hn))

theorem accAfter_first (c : Dev nD) (t : Fin cfg0.N) (h0 : t.val % 5 = 0) :
    accAfter m c t.val t.isLt = k0_pay2 (iblk m c 0 t) (iblk m c 2 t) (iblk m c 3 t) (iblk m c 1 t) (iblk m c 4 t) := by
  obtain ⟨n, hn⟩ := t
  cases n with
  | zero => rfl
  | succ n => exact if_pos h0

theorem accAfter_later (c : Dev nD) (t : Fin cfg0.N) (h0 : ¬t.val % 5 = 0) :
    accAfter m c t.val t.isLt
      = k0_pay3 (iblk m c 0 t) (iblk m c 2 t) (iblk m c 3 t) (iblk m c 1 t) (iblk m c 4 t) (accAfter m c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point what the launch hands over (the accumulator at
    anything); afterwards the accumulator at the running sum after the point before. -/
def PhiS (c : Dev nD) : (n : ℕ) → n ≤ cfg0.N → sProp 𝕄
  | 0, _ => Pipeline.ΦA spec0 c
  | n + 1, hn => iprop(iprop(owns (c : Thread nD τ) accM fullShare (accAfter m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAfter m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAfter m c (n - 1) (by omega))) ∗ (∃ r, prngReg c r)) := by
  cases n with
  | zero => exact absurd rfl hz
  | succ n => rfl

/-! ## The pipeline's proof data -/

/-- On core `c`: the arrays as the region finds them; after the body each input's buffer at its block, the output's
    at the epilogue of the running sum (read only at the last slots, where it is written back); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (accAfter m c t.val t.isLt) (iblk m c 5 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) :
    (dats m 0 c).after 6 t = k0_pay4 (accAfter m c t.val t.isLt) (iblk m c 5 t) := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 4800000 in
/-- The body at any point. The slot coordinate selects the triple; the invariant hands the body the accumulator at the
    running sum so far (at anything before the first point) and takes it back at this point's running sum; away from the
    last slots the output's buffer goes back as found, at the last slots it goes back at the epilogue. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  rw [show (dats m 0 c).leavesExact 0 t = owns (c : Thread nD τ) (ms0 t) fullShare ((dats m 0 c).after 0 t) from by
    unfold Dat.leavesExact; rw [live_in 0 (by decide) t], after_in0]
  rw [show (dats m 0 c).leavesExact 1 t = owns (c : Thread nD τ) (ms1 t) fullShare ((dats m 0 c).after 1 t) from by
    unfold Dat.leavesExact; rw [live_in 1 (by decide) t], after_in1]
  rw [show (dats m 0 c).leavesExact 2 t = owns (c : Thread nD τ) (ms2 t) fullShare ((dats m 0 c).after 2 t) from by
    unfold Dat.leavesExact; rw [live_in 2 (by decide) t], after_in2]
  rw [show (dats m 0 c).leavesExact 3 t = owns (c : Thread nD τ) (ms3 t) fullShare ((dats m 0 c).after 3 t) from by
    unfold Dat.leavesExact; rw [live_in 3 (by decide) t], after_in3]
  rw [show (dats m 0 c).leavesExact 4 t = owns (c : Thread nD τ) (ms4 t) fullShare ((dats m 0 c).after 4 t) from by
    unfold Dat.leavesExact; rw [live_in 4 (by decide) t], after_in4]
  rw [show (dats m 0 c).leavesExact 5 t = owns (c : Thread nD τ) (ms5 t) fullShare ((dats m 0 c).after 5 t) from by
    unfold Dat.leavesExact; rw [live_in 5 (by decide) t], after_in5]
  by_cases h0 : t.val % 5 = 0
  · have h4 : ¬t.val % 5 = 4 := by omega
    have hc1 : isFirst (grid0.coords t) := (isFirst_iff t).mpr h0
    have hc2 : ¬isLater (grid0.coords t) := fun h => (isLater_iff t).mp h h0
    have hc3 : ¬isLast (grid0.coords t) := fun h => h4 ((isLast_iff t).mp h)
    rw [Dat.leavesExact_idle (dats m 0 c) 6 t (idle_out t h4) (noFlush_out t h4)]
    rw [accAfter_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hc1 hc2 hc3 (iblk m c 0 t) (iblk m c 1 t) (iblk m c 2 t) (iblk m c 3 t) (iblk m c 4 t) (iblk m c 5 t)).2 ((dats m 0 c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro
          exact (View.read_writes_eq_canon _ _ _ (first_cover c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3)).trans
            (first_canon c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hc1 hc2 hc3 (iblk m c 0 t) (iblk m c 1 t) (iblk m c 2 t) (iblk m c 3 t) (iblk m c 4 t) (iblk m c 5 t)).2 ((dats m 0 c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro
          exact (View.read_writes_eq_canon _ _ _ (first_cover c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3)).trans
            (first_canon c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hc1 : ¬isFirst (grid0.coords t) := fun h => h0 ((isFirst_iff t).mp h)
    have hc2 : isLater (grid0.coords t) := (isLater_iff t).mpr h0
    rw [accAfter_later m c t h0]
    rw [PhiS_castSucc m c t, PhiS_pos m c _ _ hz]
    by_cases h4 : t.val % 5 = 4
    · have hc3 : isLast (grid0.coords t) := (isLast_iff t).mpr h4
      rw [show (dats m 0 c).leavesExact 6 t = owns (c : Thread nD τ) (ms6 t) fullShare ((dats m 0 c).after 6 t) from by
        unfold Dat.leavesExact; rw [live_out t h4], after_out, accAfter_later m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hc1 hc2 hc3 (iblk m c 0 t) (iblk m c 1 t) (iblk m c 2 t) (iblk m c 3 t) (iblk m c 4 t) (iblk m c 5 t) (accAfter m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HS Hg]
      · isplitl [HS]
        · unfold owns; iexists _; isplitr
          swap; · iexact HS
          ipureintro
          exact (View.read_writes_eq_canon _ _ _ (last_cover_acc c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)).trans
            (last_canon_acc c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact (View.read_writes_eq_canon _ _ _ (last_cover_out c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)).trans
        (last_canon_out c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)
    · have hc3 : ¬isLast (grid0.coords t) := fun h => h4 ((isLast_iff t).mp h)
      rw [Dat.leavesExact_idle (dats m 0 c) 6 t (idle_out t h4) (noFlush_out t h4)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) hc1 hc2 hc3 (iblk m c 0 t) (iblk m c 1 t) (iblk m c 2 t) (iblk m c 3 t) (iblk m c 4 t) (iblk m c 5 t) (accAfter m c (t.val - 1) (Nat.lt_of_le_of_lt (Nat.sub_le _ _) t.isLt))).2 ((dats m 0 c).before 6 t d6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro
          exact (View.read_writes_eq_canon _ _ _ (mid_cover c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)).trans
            (mid_canon c _ (ms0 t) (hs0 t) (ms1 t) (hs1 t) (ms2 t) (hs2 t) (ms3 t) (hs3 t) (ms4 t) (hs4 t) (ms5 t) (hs5 t) (ms6 t) (hs6 t) accM (Memref.isWhole_whole _) _ _ _ _ _ _ hc1 hc2 hc3 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the running sum's value is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA_eq]
  iintro ⟨HS, Hg⟩
  isplitl [HS]
  · iexists _; iexact HS
  iexact Hg

/-! ## The run and the frame -/

set_option backward.isDefEq.respectTransparency.types false in
/-- Every weakly fair execution of the program terminates; every final state has each array of the pipeline at what
    the library computes from the proof data, and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.BlockReads.lean ====
/-
  What each window's block holds, entry by entry, in terms of the argument arrays.

  Grid point `t` works on sample block `t / 5` and slot `t % 5`. The kernel's operands are relabelings of the
  arguments made before the launch: the counts with the sample axis last, the observed flags likewise with a unit axis
  inserted, the second weight matrix cut into five bands of 64 rows, and the two bias vectors as columns. So entry
  (0, f, x) of the counts block at `t` is counts(8192 (t / 5) + x, t % 5, f); entry (0, 0, x) of the flags block is
  observed(8192 (t / 5) + x, t % 5); entry (0, d, s) of the band block is W_red(64 (t % 5) + d, s); the first weight
  matrix and the two bias columns are whole.
-/
import proofs.«151459_g5703716569288_cont_9to1c4b_55_33_alg».proof.Proof.Accum
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Body Idealize.ShloMosaic.ValueIdx

variable {F : FTy → Type} [FloatOps F]
variable (m : (ℓ : Loc nD τ sig) → Buf (Elt F) ℓ) (ρ : Dev nD → PrngReg)

/-! ## The block index of each window at each point -/

theorem idx_facts : ∀ t : Fin cfg0.N,
    win0_0.index t (0 : Fin 3) = t.val % 5 ∧ win0_0.index t (1 : Fin 3) = 0 ∧ win0_0.index t (2 : Fin 3) = t.val / 5
    ∧ win0_1.index t (0 : Fin 3) = t.val % 5 ∧ win0_1.index t (1 : Fin 3) = 0 ∧ win0_1.index t (2 : Fin 3) = t.val / 5
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val % 5 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val / 5 ∧ win0_6.index t (1 : Fin 2) = 0 :=
  (by decide +kernel : ∀ t : Fin grid0.N, _)

/-! ## The operands as the launch finds them -/

theorem operand_counts (c : Dev nD) :
    (V m c main_call0_v0 : S5x64x32768.Idx → Elt F .f32)
      = transpose S5x64x32768 [1, 2, 0] (m ((c : Thread nD τ).loc main_arg0)) Facts₀.transposes_S32768x5x64_S5x64x32768_1_2_0 := by
  dsimp only [V, hostOps0]; after_results; rfl

theorem operand_flags (c : Dev nD) :
    (V m c main_call0_v2 : S5x1x32768.Idx → Elt F .i32)
      = shapeCast S5x1x32768 (transpose S5x32768 [1, 0] (m ((c : Thread nD τ).loc main_arg1)) Facts₀.transposes_S32768x5_S5x32768_1_0)
          Facts₀.shapeCasts_S5x32768_S5x1x32768 := by
  dsimp only [V, hostOps0]; after_results; rfl

theorem operand_bands (c : Dev nD) :
    (V m c main_call0_v3 : S5x64x128.Idx → Elt F .f32)
      = shapeCast S5x64x128 (m ((c : Thread nD τ).loc main_arg4)) Facts₀.shapeCasts_S320x128_S5x64x128 := by
  dsimp only [V, hostOps0]; after_results; rfl

theorem operand_bias1 (c : Dev nD) :
    (V m c main_call0_v4 : S64x1.Idx → Elt F .f32)
      = shapeCast S64x1 (m ((c : Thread nD τ).loc main_arg3)) Facts₀.shapeCasts_S64_S64x1 := by
  dsimp only [V, hostOps0]; after_results; rfl

theorem operand_bias2 (c : Dev nD) :
    (V m c main_call0_v5 : S128x1.Idx → Elt F .f32)
      = shapeCast S128x1 (m ((c : Thread nD τ).loc main_arg5)) Facts₀.shapeCasts_S128_S128x1 := by
  dsimp only [V, hostOps0]; after_results; rfl

/-! ## The relabelings read at an entry -/

section Relabel
variable {α : Type}

theorem counts_at (a0 : S32768x5x64.Idx → α) (i : S5x64x32768.Idx) (b : Fin 32768) (j : Fin 5) (f : Fin 64)
    (h0 : (i 0).val = j.val) (h1 : (i 1).val = f.val) (h2 : (i 2).val = b.val) :
    transpose S5x64x32768 [1, 2, 0] a0 Facts₀.transposes_S32768x5x64_S5x64x32768_1_2_0 i = a0 (ix3 b j f) :=
  transpose_apply _ _ _ i (ix3 b j f) fun a => by
    match a with
    | ⟨0, _⟩ => exact h0.symm
    | ⟨1, _⟩ => exact h1.symm
    | ⟨2, _⟩ => exact h2.symm

theorem flags_at (a1 : S32768x5.Idx → α) (i : S5x1x32768.Idx) (b : Fin 32768) (j : Fin 5)
    (h0 : (i 0).val = j.val) (h2 : (i 2).val = b.val) :
    shapeCast S5x1x32768 (transpose S5x32768 [1, 0] a1 Facts₀.transposes_S32768x5_S5x32768_1_0) Facts₀.shapeCasts_S5x32768_S5x1x32768 i
      = a1 (ix2 b j) := by
  refine (shapeCast_apply _ _ i (ix2 j b) ?_).trans (transpose_apply _ _ _ _ (ix2 b j) fun a => ?_)
  · rw [Shape.rowMajor_val_two, Shape.rowMajor_val_three]
    have h1 : (i 1).val < 1 := (i 1).isLt
    show j.val * 32768 + b.val = ((i 0).val * 1 + (i 1).val) * 32768 + (i 2).val
    omega
  · match a with
    | ⟨0, _⟩ => rfl
    | ⟨1, _⟩ => rfl

theorem bands_at (a4 : S320x128.Idx → α) (i : S5x64x128.Idx) (k : Fin 320) (s : Fin 128)
    (hk : k.val = (i 0).val * 64 + (i 1).val) (hs : (i 2).val = s.val) :
    shapeCast S5x64x128 a4 Facts₀.shapeCasts_S320x128_S5x64x128 i = a4 (ix2 k s) := by
  refine shapeCast_apply _ _ i (ix2 k s) ?_
  rw [Shape.rowMajor_val_two, Shape.rowMajor_val_three]
  show k.val * 128 + s.val = ((i 0).val * 64 + (i 1).val) * 128 + (i 2).val
  omega

theorem bias1_at (a3 : S64.Idx → α) (i : S64x1.Idx) (d : Fin 64) (h : (i 0).val = d.val) :
    shapeCast S64x1 a3 Facts₀.shapeCasts_S64_S64x1 i = a3 (ix1 d) := by
  refine shapeCast_apply _ _ i (ix1 d) ?_
  rw [Shape.rowMajor_val_one, Shape.rowMajor_val_two]
  have h1 : (i 1).val < 1 := (i 1).isLt
  show d.val = (i 0).val * 1 + (i 1).val
  omega

theorem bias2_at (a5 : S128.Idx → α) (i : S128x1.Idx) (s : Fin 128) (h : (i 0).val = s.val) :
    shapeCast S128x1 a5 Facts₀.shapeCasts_S128_S128x1 i = a5 (ix1 s) := by
  refine shapeCast_apply _ _ i (ix1 s) ?_
  rw [Shape.rowMajor_val_one, Shape.rowMajor_val_two]
  have h1 : (i 1).val < 1 := (i 1).isLt
  show s.val = (i 0).val * 1 + (i 1).val
  omega

end Relabel

/-! ## The blocks, entry by entry -/

theorem counts_block (c : Dev nD) (t : Fin cfg0.N) (f : Fin 64) (x : Fin 8192) (b : Fin 32768) (j : Fin 5)
    (hb : b.val = 8192 * (t.val / 5) + x.val) (hj : j.val = t.val % 5) :
    (iblk m c 0 t : Vec F S1x64x8192 .f32) (ix3 0 f x)
      = (m ((c : Thread nD τ).loc main_arg0) : S32768x5x64.Idx → Elt F .f32) (ix3 b j f) := by
  obtain ⟨e0, e1, e2, -⟩ := idx_facts t
  unfold iblk
  rw [View.read_apply]
  refine (congrFun (operand_counts m c) _).trans (counts_at _ _ b j f ?_ ?_ ?_)
  · show win0_0.index t (0 : Fin 3) * 1 + 1 * 0 = j.val; omega
  · show win0_0.index t (1 : Fin 3) * 64 + 1 * f.val = f.val; omega
  · show win0_0.index t (2 : Fin 3) * 8192 + 1 * x.val = b.val; omega

theorem flags_block (c : Dev nD) (t : Fin cfg0.N) (x : Fin 8192) (b : Fin 32768) (j : Fin 5)
    (hb : b.val = 8192 * (t.val / 5) + x.val) (hj : j.val = t.val % 5) :
    (iblk m c 1 t : Vec F S1x1x8192 .i32) (ix3 0 0 x)
      = (m ((c : Thread nD τ).loc main_arg1) : S32768x5.Idx → Elt F .i32) (ix2 b j) := by
  obtain ⟨-, -, -, e0, e1, e2, -⟩ := idx_facts t
  unfold iblk
  rw [View.read_apply]
  refine (congrFun (operand_flags m c) _).trans (flags_at _ _ b j ?_ ?_)
  · show win0_1.index t (0 : Fin 3) * 1 + 1 * 0 = j.val; omega
  · show win0_1.index t (2 : Fin 3) * 8192 + 1 * x.val = b.val; omega

theorem wmap_block (c : Dev nD) (t : Fin cfg0.N) (f d : Fin 64) :
    (iblk m c 2 t : Vec F S64x64 .f32) (ix2 f d)
      = (m ((c : Thread nD τ).loc main_arg2) : S64x64.Idx → Elt F .f32) (ix2 f d) := by
  obtain ⟨-, -, -, -, -, -, e0, e1, -⟩ := idx_facts t
  unfold iblk
  rw [View.read_apply]
  refine (congrFun (V_main_arg2 m c) _).trans (congrArg _ (funext fun a => Fin.ext ?_))
  match a with
  | ⟨0, _⟩ => show win0_2.index t (0 : Fin 2) * 64 + 1 * f.val = f.val; omega
  | ⟨1, _⟩ => show win0_2.index t (1 : Fin 2) * 64 + 1 * d.val = d.val; omega

theorem bias1_block (c : Dev nD) (t : Fin cfg0.N) (d : Fin 64) :
    (iblk m c 3 t : Vec F S64x1 .f32) (ix2 d 0)
      = (m ((c : Thread nD τ).loc main_arg3) : S64.Idx → Elt F .f32) (ix1 d) := by
  obtain ⟨-, -, -, -, -, -, -, -, e0, e1, -⟩ := idx_facts t
  unfold iblk
  rw [View.read_apply]
  refine (congrFun (operand_bias1 m c) _).trans (bias1_at _ _ d ?_)
  show win0_3.index t (0 : Fin 2) * 64 + 1 * d.val = d.val; omega

theorem bands_block (c : Dev nD) (t : Fin cfg0.N) (d : Fin 64) (s : Fin 128) (k : Fin 320)
    (hk : k.val = (t.val % 5) * 64 + d.val) :
    (iblk m c 4 t : Vec F S1x64x128 .f32) (ix3 0 d s)
      = (m ((c : Thread nD τ).loc main_arg4) : S320x128.Idx → Elt F .f32) (ix2 k s) := by
  obtain ⟨-, -, -, -, -, -, -, -, -, -, e0, e1, e2, -⟩ := idx_facts t
  unfold iblk
  rw [View.read_apply]
  refine (congrFun (operand_bands m c) _).trans (bands_at _ _ k s ?_ ?_)
  · show k.val = (win0_4.index t (0 : Fin 3) * 1 + 1 * 0) * 64 + (win0_4.index t (1 : Fin 3) * 64 + 1 * d.val); omega
  · show win0_4.index t (2 : Fin 3) * 128 + 1 * s.val = s.val; omega

theorem bias2_block (c : Dev nD) (t : Fin cfg0.N) (s : Fin 128) :
    (iblk m c 5 t : Vec F S128x1 .f32) (ix2 s 0)
      = (m ((c : Thread nD τ).loc main_arg5) : S128.Idx → Elt F .f32) (ix1 s) := by
  obtain ⟨-, -, -, -, -, -, -, -, -, -, -, -, -, e0, e1, -⟩ := idx_facts t
  unfold iblk
  rw [View.read_apply]
  refine (congrFun (operand_bias2 m c) _).trans (bias2_at _ _ s ?_)
  show win0_5.index t (0 : Fin 2) * 128 + 1 * s.val = s.val; omega

end Cert.KernelIdeal.Result

end
-- ==== Proof.LibFirstAxisProduct.lean ====
/-
  A matrix product that contracts the FIRST axis of both operands, read at one entry.

  For a [K, A] left operand and a [K, B] right operand, the [A, B] product taken over the shared first axis has, at
  entry (a, b), the sum over k of left(k, a) times right(k, b). Over the extended reals the product into a zero
  accumulator is exactly that sum. The record that names the contraction is taken as given, with its contracted axes
  and the two coordinates it copies from the output index as hypotheses.
-/
import Idealize.ShloMosaic.Lib.ValueIdx
import Idealize.ShloMosaic.PureOps.Ideal.Laws

noncomputable section

namespace Cert.FirstAxisProduct

open Idealize.ShloMosaic Idealize.ShloMosaic.ValueIdx

/-- A `tpu.matmul` into a zero accumulator that contracts axis 0 of a [K, A] operand with axis 0 of a [K, B] operand,
    at (a, b), is the sum over k of lhs(k, a) * rhs(k, b). -/
theorem matmul_zero_apply {K A B : ℕ} (D : DotDims ⟨2, ![K, A]⟩ ⟨2, ![K, B]⟩ ⟨2, ![A, B]⟩)
    (hlc : D.lhsContracting = [(0 : Fin 2)]) (hrc : D.rhsContracting = [(0 : Fin 2)])
    (hl : ∀ (j : (⟨2, ![A, B]⟩ : Shape).Idx) (q : D.contr.Idx), (D.lhsIdx j q 1).val = (j 0).val)
    (hr : ∀ (j : (⟨2, ![A, B]⟩ : Shape).Idx) (q : D.contr.Idx), (D.rhsIdx j q 1).val = (j 1).val)
    (hrank : D.contr.rank = 1) (hsize : D.contr.size ⟨0, by omega⟩ = K)
    (prec : Option ContractPrecision) (lhs : FVec Ideal ⟨2, ![K, A]⟩ .f32) (rhs : FVec Ideal ⟨2, ![K, B]⟩ .f32)
    (a : Fin A) (b : Fin B) :
    FloatOps.matmul D prec lhs rhs (constant ⟨2, ![A, B]⟩ .f32 0x00000000#32) (ix2 a b)
      = ∑ k : Fin K, lhs (ix2 k a) * rhs (ix2 k b) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 a b) ((contrEquiv1 D K hrank hsize).symm k) = ix2 k a := funext fun x => Fin.ext (by
    match x with
    | ⟨0, _⟩ => exact (D.lhsIdx_val_of_single hlc _ _).trans hk
    | ⟨1, _⟩ => exact hl _ _)
  have er : D.rhsIdx (ix2 a b) ((contrEquiv1 D K hrank hsize).symm k) = ix2 k b := funext fun x => Fin.ext (by
    match x with
    | ⟨0, _⟩ => exact (D.rhsIdx_val_of_single hrc _ _).trans hk
    | ⟨1, _⟩ => exact hr _ _)
  rw [el, er]

end Cert.FirstAxisProduct

end
-- ==== Proof.Product.lean ====
/-
  One slot's product, entry by entry, over the extended reals.

  From a slot's counts panel x0 [1, 64, 8192], observed flags x1 [1, 1, 8192], the first weight matrix x2 [64, 64],
  its bias column x3 [64, 1] and the slot's band of the second weight matrix x4 [1, 64, 128], the body forms the panel
      h(d, x) = max( Σ_f x2(f, d) · x0(0, f, x) + x3(d, 0), 0 ) · flag(x1(0, 0, x))
  and then the [128, 8192] product  p(s, x) = Σ_d x4(0, d, s) · h(d, x): both matrix products contract the first axis
  of both operands. The epilogue at the last slot sends an accumulator a and the bias column x5 [128, 1] to the
  [8192, 128] block  e(x, s) = max( a(s, x) + x5(s, 0), 0 ).
-/
import proofs.«151459_g5703716569288_cont_9to1c4b_55_33_alg».proof.Proof.Gen.KernelIdeal.Skeleton
import proofs.«151459_g5703716569288_cont_9to1c4b_55_33_alg».proof.Proof.LibFirstAxisProduct
import Idealize.ShloMosaic.Lib.Pipeline.Value
import Idealize.ShloMosaic.Lib.ValueIdx
import Idealize.ShloMosaic.PureOps.Ideal.Laws

noncomputable section

open Idealize.ShloMosaic Idealize.ShloMosaic.TcCoe

namespace Cert.KernelIdeal.Result

open Cert.KernelIdeal Cert.KernelIdeal.Gen Idealize.ShloMosaic.ValueIdx

/-- The encoded, masked panel of one slot as the body computes it. -/
def panel (x0 : FVec Ideal S1x64x8192 .f32) (x2 : FVec Ideal S64x64 .f32) (x3 : FVec Ideal S64x1 .f32)
    (x1 : IVec S1x1x8192 32) : FVec Ideal S64x8192 .f32 :=
  mulf (maximumf
      (addf (matmul dot_S64x64_S64x8192_S64x8192_0_0_1_1_n_n none x2 (shapeCast S64x8192 x0 Facts₀.shapeCasts_S1x64x8192_S64x8192)
          (constant S64x8192 .f32 0x00000000#32))
        (broadcastTo S64x8192 (shapeCast S64x1 x3 Facts₀.shapeCasts_S64x1_S64x1) Facts₀.broadcasts_S64x1_S64x8192))
      (broadcast S64x8192 (Scalar.ofBits (F := Ideal) .f32 0x00000000#32)))
    (broadcastTo S64x8192 (sitofp .f32 (shapeCast S1x8192 x1 Facts₀.shapeCasts_S1x1x8192_S1x8192 : IVec S1x8192 32)) Facts₀.broadcasts_S1x8192_S64x8192)

/-- The slot's product is the band against the panel. -/
theorem product_eq (x0 : FVec Ideal S1x64x8192 .f32) (x2 : FVec Ideal S64x64 .f32) (x3 : FVec Ideal S64x1 .f32)
    (x1 : IVec S1x1x8192 32) (x4 : FVec Ideal S1x64x128 .f32) :
    k0_pay1 (F := Ideal) x0 x2 x3 x1 x4
      = matmul dot_S64x128_S64x8192_S128x8192_0_0_1_1_n_n none (shapeCast S64x128 x4 Facts₀.shapeCasts_S1x64x128_S64x128)
          (panel x0 x2 x3 x1) (constant S128x8192 .f32 0x00000000#32) := rfl

theorem dot1_l (j : S64x8192.Idx) (q : dot_S64x64_S64x8192_S64x8192_0_0_1_1_n_n.contr.Idx) :
    (dot_S64x64_S64x8192_S64x8192_0_0_1_1_n_n.lhsIdx j q 1).val = (j 0).val := by
  unfold DotDims.lhsIdx
  rw [dif_neg (show ¬(1 : Fin S64x64.rank) ∈ dot_S64x64_S64x8192_S64x8192_0_0_1_1_n_n.lhsBatch by decide),
    dif_pos (show (1 : Fin S64x64.rank) ∈ dot_S64x64_S64x8192_S64x8192_0_0_1_1_n_n.lhsNonContracting by decide)]
  rfl
theorem dot1_r (j : S64x8192.Idx) (q : dot_S64x64_S64x8192_S64x8192_0_0_1_1_n_n.contr.Idx) :
    (dot_S64x64_S64x8192_S64x8192_0_0_1_1_n_n.rhsIdx j q 1).val = (j 1).val := by
  unfold DotDims.rhsIdx
  rw [dif_neg (show ¬(1 : Fin S64x8192.rank) ∈ dot_S64x64_S64x8192_S64x8192_0_0_1_1_n_n.rhsBatch by decide),
    dif_pos (show (1 : Fin S64x8192.rank) ∈ dot_S64x64_S64x8192_S64x8192_0_0_1_1_n_n.rhsNonContracting by decide)]
  rfl
theorem dot2_l (j : S128x8192.Idx) (q : dot_S64x128_S64x8192_S128x8192_0_0_1_1_n_n.contr.Idx) :
    (dot_S64x128_S64x8192_S128x8192_0_0_1_1_n_n.lhsIdx j q 1).val = (j 0).val := by
  unfold DotDims.lhsIdx
  rw [dif_neg (show ¬(1 : Fin S64x128.rank) ∈ dot_S64x128_S64x8192_S128x8192_0_0_1_1_n_n.lhsBatch by decide),
    dif_pos (show (1 : Fin S64x128.rank) ∈ dot_S64x128_S64x8192_S128x8192_0_0_1_1_n_n.lhsNonContracting by decide)]
  rfl
theorem dot2_r (j : S128x8192.Idx) (q : dot_S64x128_S64x8192_S128x8192_0_0_1_1_n_n.contr.Idx) :
    (dot_S64x128_S64x8192_S128x8192_0_0_1_1_n_n.rhsIdx j q 1).val = (j 1).val := by
  unfold DotDims.rhsIdx
  rw [dif_neg (show ¬(1 : Fin S64x8192.rank) ∈ dot_S64x128_S64x8192_S128x8192_0_0_1_1_n_n.rhsBatch by decide),
    dif_pos (show (1 : Fin S64x8192.rank) ∈ dot_S64x128_S64x8192_S128x8192_0_0_1_1_n_n.rhsNonContracting by decide)]
  rfl

/-- A panel [1, 64, N] seen as [64, N], at (f, x), is its entry (0, f, x). -/
theorem drop_lead_8192 {α : Type} (x0 : S1x64x8192.Idx → α) (f : Fin 64) (x : Fin 8192) :
    shapeCast S64x8192 x0 Facts₀.shapeCasts_S1x64x8192_S64x8192 (ix2 f x) = x0 (ix3 0 f x) := by
  refine shapeCast_apply _ _ _ (ix3 0 f x) ?_
  rw [Shape.rowMajor_val_two, Shape.rowMajor_val_three]
  show ((0 : ℕ) * 64 + f.val) * 8192 + x.val = f.val * 8192 + x.val
  omega
theorem drop_lead_128 {α : Type} (x4 : S1x64x128.Idx → α) (d : Fin 64) (s : Fin 128) :
    shapeCast S64x128 x4 Facts₀.shapeCasts_S1x64x128_S64x128 (ix2 d s) = x4 (ix3 0 d s) := by
  refine shapeCast_apply _ _ _ (ix3 0 d s) ?_
  rw [Shape.rowMajor_val_two, Shape.rowMajor_val_three]
  show ((0 : ℕ) * 64 + d.val) * 128 + s.val = d.val * 128 + s.val
  omega
theorem drop_mid_8192 {α : Type} (x1 : S1x1x8192.Idx → α) (x : Fin 8192) :
    shapeCast S1x8192 x1 Facts₀.shapeCasts_S1x1x8192_S1x8192 (ix2 0 x) = x1 (ix3 0 0 x) := by
  refine shapeCast_apply _ _ _ (ix3 0 0 x) ?_
  rw [Shape.rowMajor_val_two, Shape.rowMajor_val_three]
  show ((0 : ℕ) * 1 + 0) * 8192 + x.val = 0 * 8192 + x.val
  omega

/-- A column [64, 1] spread along the lanes, at (d, x), is its entry (d, 0). -/
theorem spread_col64 {α : Type} (v : S64x1.Idx → α) (d : Fin 64) (x : Fin 8192) :
    broadcastTo S64x8192 v Facts₀.broadcasts_S64x1_S64x8192 (ix2 d x) = v (ix2 d 0) :=
  broadcastTo_apply _ _ _ (ix2 d 0) fun a => by
    match a with
    | ⟨0, _⟩ => show d.val = if (64 : ℕ) = 1 then 0 else d.val; rw [if_neg (by decide)]
    | ⟨1, _⟩ => show (0 : ℕ) = if (1 : ℕ) = 1 then 0 else x.val; rw [if_pos rfl]
theorem spread_col128 {α : Type} (v : S128x1.Idx → α) (s : Fin 128) (x : Fin 8192) :
    broadcastTo S128x8192 v Facts₀.broadcasts_S128x1_S128x8192 (ix2 s x) = v (ix2 s 0) :=
  broadcastTo_apply _ _ _ (ix2 s 0) fun a => by
    match a with
    | ⟨0, _⟩ => show s.val = if (128 : ℕ) = 1 then 0 else s.val; rw [if_neg (by decide)]
    | ⟨1, _⟩ => show (0 : ℕ) = if (1 : ℕ) = 1 then 0 else x.val; rw [if_pos rfl]
/-- A row [1, N] spread down the sublanes, at (d, x), is its entry (0, x). -/
theorem spread_row {α : Type} (v : S1x8192.Idx → α) (d : Fin 64) (x : Fin 8192) :
    broadcastTo S64x8192 v Facts₀.broadcasts_S1x8192_S64x8192 (ix2 d x) = v (ix2 0 x) :=
  broadcastTo_apply _ _ _ (ix2 0 x) fun a => by
    match a with
    | ⟨0, _⟩ => show (0 : ℕ) = if (1 : ℕ) = 1 then 0 else d.val; rw [if_pos rfl]
    | ⟨1, _⟩ => show x.val = if (8192 : ℕ) = 1 then 0 else x.val; rw [if_neg (by decide)]

/-- The panel at (d, x). -/
theorem panel_apply (x0 : FVec Ideal S1x64x8192 .f32) (x2 : FVec Ideal S64x64 .f32) (x3 : FVec Ideal S64x1 .f32)
    (x1 : IVec S1x1x8192 32) (d : Fin 64) (x : Fin 8192) :
    panel x0 x2 x3 x1 (ix2 d x)
      = max ((∑ f : Fin 64, x2 (ix2 f d) * x0 (ix3 0 f x)) + x3 (ix2 d 0)) (Ideal.ofBits .f32 0x00000000#32)
          * FloatOps.sitofp (F := Ideal) .f32 (x1 (ix3 0 0 x)) := by
  unfold panel
  show max (FloatOps.matmul dot_S64x64_S64x8192_S64x8192_0_0_1_1_n_n none x2 (shapeCast S64x8192 x0 Facts₀.shapeCasts_S1x64x8192_S64x8192)
        (constant S64x8192 .f32 0x00000000#32) (ix2 d x)
      + broadcastTo S64x8192 (shapeCast S64x1 x3 Facts₀.shapeCasts_S64x1_S64x1) Facts₀.broadcasts_S64x1_S64x8192 (ix2 d x))
      (Ideal.ofBits .f32 0x00000000#32)
    * broadcastTo S64x8192 (sitofp (F := Ideal) .f32 (shapeCast S1x8192 x1 Facts₀.shapeCasts_S1x1x8192_S1x8192 : IVec S1x8192 32)) Facts₀.broadcasts_S1x8192_S64x8192 (ix2 d x) = _
  rw [Cert.FirstAxisProduct.matmul_zero_apply dot_S64x64_S64x8192_S64x8192_0_0_1_1_n_n rfl rfl dot1_l dot1_r rfl rfl,
    spread_col64, spread_row, shapeCast_self]
  show max ((∑ f : Fin 64, x2 (ix2 f d) * shapeCast S64x8192 x0 Facts₀.shapeCasts_S1x64x8192_S64x8192 (ix2 f x)) + x3 (ix2 d 0)) _
    * FloatOps.sitofp (F := Ideal) .f32 (shapeCast S1x8192 x1 Facts₀.shapeCasts_S1x1x8192_S1x8192 (ix2 0 x)) = _
  rw [drop_mid_8192]
  simp only [drop_lead_8192]

/-- The slot's product at (s, x). -/
theorem product_apply (x0 : FVec Ideal S1x64x8192 .f32) (x2 : FVec Ideal S64x64 .f32) (x3 : FVec Ideal S64x1 .f32)
    (x1 : IVec S1x1x8192 32) (x4 : FVec Ideal S1x64x128 .f32) (s : Fin 128) (x : Fin 8192) :
    k0_pay1 (F := Ideal) x0 x2 x3 x1 x4 (ix2 s x)
      = ∑ d : Fin 64, x4 (ix3 0 d s) *
          (max ((∑ f : Fin 64, x2 (ix2 f d) * x0 (ix3 0 f x)) + x3 (ix2 d 0)) (Ideal.ofBits .f32 0x00000000#32)
            * FloatOps.sitofp (F := Ideal) .f32 (x1 (ix3 0 0 x))) := by
  rw [product_eq]
  show FloatOps.matmul dot_S64x128_S64x8192_S128x8192_0_0_1_1_n_n none (shapeCast S64x128 x4 Facts₀.shapeCasts_S1x64x128_S64x128)
      (panel x0 x2 x3 x1) (constant S128x8192 .f32 0x00000000#32) (ix2 s x) = _
  rw [Cert.FirstAxisProduct.matmul_zero_apply dot_S64x128_S64x8192_S128x8192_0_0_1_1_n_n rfl rfl dot2_l dot2_r rfl rfl]
  simp only [drop_lead_128, panel_apply]

/-- The first slot's store is the slot's product; a later slot's store is the accumulator plus the slot's product. -/
theorem first_store (x0 : FVec Ideal S1x64x8192 .f32) (x2 : FVec Ideal S64x64 .f32) (x3 : FVec Ideal S64x1 .f32)
    (x1 : IVec S1x1x8192 32) (x4 : FVec Ideal S1x64x128 .f32) :
    k0_pay2 (F := Ideal) x0 x2 x3 x1 x4 = k0_pay1 (F := Ideal) x0 x2 x3 x1 x4 := by
  unfold k0_pay2; exact shapeCast_self _ _
theorem later_store (x0 : FVec Ideal S1x64x8192 .f32) (x2 : FVec Ideal S64x64 .f32) (x3 : FVec Ideal S64x1 .f32)
    (x1 : IVec S1x1x8192 32) (x4 : FVec Ideal S1x64x128 .f32) (a : FVec Ideal S128x8192 .f32) (i : S128x8192.Idx) :
    k0_pay3 (F := Ideal) x0 x2 x3 x1 x4 a i = a i + k0_pay1 (F := Ideal) x0 x2 x3 x1 x4 i := by
  unfold k0_pay3; exact congrFun (shapeCast_self (addf a (k0_pay1 (F := Ideal) x0 x2 x3 x1 x4)) _) i

/-- The epilogue at (x, s). -/
theorem epilogue_apply (a : FVec Ideal S128x8192 .f32) (x5 : FVec Ideal S128x1 .f32) (x : Fin 8192) (s : Fin 128) :
    k0_pay4 (F := Ideal) a x5 (ix2 x s) = max (a (ix2 s x) + x5 (ix2 s 0)) (Ideal.ofBits .f32 0x00000000#32) := by
  unfold k0_pay4
  refine (transpose_apply _ _ _ (ix2 x s) (ix2 s x) fun b => ?_).trans ?_
  · match b with
    | ⟨0, _⟩ => rfl
    | ⟨1, _⟩ => rfl
  · show max (a (ix2 s x) + broadcastTo S128x8192 (shapeCast S128x1 x5 Facts₀.shapeCasts_S128x1_S128x1) Facts₀.broadcasts_S128x1_S128x8192 (ix2 s x)) _ = _
    rw [spread_col128, shapeCast_self]
    rfl

end Cert.KernelIdeal.Result

end
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.Spec.lean ====
/-
  The function both programs compute, over the extended reals.

  For sample b and output unit s:
      out(b, s) = max( Σ_{k < 320} feat(b, k / 64, k % 64) · W_red(k, s) + b_red(s), 0 )
      feat(b, j, d) = max( Σ_{f < 64} counts(b, j, f) · W_map(f, d) + b_map(d), 0 ) · mask(b, j)
  where mask(b, j) is the observed flag read as a number. The 320 columns of the second product are five bands of 64:
  column k belongs to slot k / 64 and is unit k % 64 of that slot, so the sum over k is the sum over the five slots of
  the sums over the 64 units of a slot. Only the order and grouping of a finite sum and the order of the factors of a
  product change between the two programs, so nothing is asked of the inputs.
-/
import Idealize.ShloMosaic.Lib.ValueIdx
import Idealize.ShloMosaic.PureOps.Ideal.Laws
import proofs.«151459_g5703716569288_cont_9to1c4b_55_33_alg».proof.Proof.LibTileSum

noncomputable section

namespace Cert.Spec

open Idealize.ShloMosaic Idealize.ShloMosaic.ValueIdx

abbrev Counts := (⟨⟨3, ![32768, 5, 64]⟩, .f32⟩ : BufTy).Contents (Elt Ideal)
abbrev Observed := (⟨⟨2, ![32768, 5]⟩, .i32⟩ : BufTy).Contents (Elt Ideal)
abbrev WMap := (⟨⟨2, ![64, 64]⟩, .f32⟩ : BufTy).Contents (Elt Ideal)
abbrev BMap := (⟨⟨1, ![64]⟩, .f32⟩ : BufTy).Contents (Elt Ideal)
abbrev WRed := (⟨⟨2, ![320, 128]⟩, .f32⟩ : BufTy).Contents (Elt Ideal)
abbrev BRed := (⟨⟨1, ![128]⟩, .f32⟩ : BufTy).Contents (Elt Ideal)
abbrev Out := (⟨⟨2, ![32768, 128]⟩, .f32⟩ : BufTy).Contents (Elt Ideal)

/-- The slot a column of the second product belongs to, -/
def slotOf (k : Fin 320) : Fin 5 := ⟨k.val / 64, by have := k.isLt; omega⟩
/-- and its unit within the slot. -/
def unitOf (k : Fin 320) : Fin 64 := ⟨k.val % 64, Nat.mod_lt _ (by decide)⟩
/-- Column `64 j + d`. -/
abbrev col (j : Fin 5) (d : Fin 64) : Fin 320 := Cert.TileSum.tileIdx (T := 5) (w := 64) (N := 320) rfl j d

theorem slotOf_col (j : Fin 5) (d : Fin 64) : slotOf (col j d) = j := by
  apply Fin.ext; have := d.isLt; show (j.val * 64 + d.val) / 64 = j.val; omega
theorem unitOf_col (j : Fin 5) (d : Fin 64) : unitOf (col j d) = d := by
  apply Fin.ext; have := d.isLt; show (j.val * 64 + d.val) % 64 = d.val; omega

/-- The encoded feature of sample `b`, slot `j`, unit `d`, zeroed where the slot is not observed. -/
def feat (cnt : Counts) (obs : Observed) (wm : WMap) (bm : BMap) (b : Fin 32768) (j : Fin 5) (d : Fin 64) : EReal :=
  max ((∑ f : Fin 64, cnt (ix3 b j f) * wm (ix2 f d)) + bm (ix1 d)) (Ideal.ofBits .f32 0x00000000#32)
    * FloatOps.sitofp (F := Ideal) .f32 (obs (ix2 b j))

/-- The result array. -/
def out (cnt : Counts) (obs : Observed) (wm : WMap) (bm : BMap) (wr : WRed) (br : BRed) : Out := fun i =>
  max ((∑ k : Fin 320, feat cnt obs wm bm (i 0) (slotOf k) (unitOf k) * wr (ix2 k (i 1))) + br (ix1 (i 1)))
    (Ideal.ofBits .f32 0x00000000#32)

/-- The same entry with the columns taken slot by slot and each product's factors in the other order: the form a
    running sum over the slots arrives at. -/
theorem out_by_slots (cnt : Counts) (obs : Observed) (wm : WMap) (bm : BMap) (wr : WRed) (br : BRed)
    (b : Fin 32768) (s : Fin 128) :
    out cnt obs wm bm wr br (ix2 b s)
      = max ((∑ j : Fin 5, ∑ d : Fin 64, wr (ix2 (col j d) s) *
              (max ((∑ f : Fin 64, wm (ix2 f d) * cnt (ix3 b j f)) + bm (ix1 d)) (Ideal.ofBits .f32 0x00000000#32)
                * FloatOps.sitofp (F := Ideal) .f32 (obs (ix2 b j)))) + br (ix1 s))
          (Ideal.ofBits .f32 0x00000000#32) := by
  unfold out
  show max ((∑ k : Fin 320, feat cnt obs wm bm b (slotOf k) (unitOf k) * wr (ix2 k s)) + br (ix1 s)) _ = _
  rw [Cert.TileSum.sum_tiles (T := 5) (w := 64) (N := 320) rfl]
  congr 2
  refine Finset.sum_congr rfl fun j _ => Finset.sum_congr rfl fun d _ => ?_
  rw [slotOf_col, unitOf_col, mul_comm]
  unfold feat
  congr 4
  exact Finset.sum_congr rfl fun f _ => mul_comm _ _

end Cert.Spec

end
-- ==== Proof.Result.lean ====
/-
  The kernel's result array is the specified function of its arguments.

  Sample block q is worked on at the five consecutive points 5 q, …, 5 q + 4, one per slot. The accumulator after point
  5 q + j is the sum of the products of slots 0 … j of that sample block; at j = 4 it is the whole sum over the five
  slots, and the block written back is its epilogue. Entry (x, s) of that block is the specified value at sample
  8192 q + x, unit s: the sum over the five slots of the sums over the 64 units of a slot is the sum over the 320
  columns. The four written-back blocks tile the result array.
-/
import proofs.«151459_g5703716569288_cont_9to1c4b_55_33_alg».proof.Proof.Accum
import proofs.«151459_g5703716569288_cont_9to1c4b_55_33_alg».proof.Proof.BlockReads
import proofs.«151459_g5703716569288_cont_9to1c4b_55_33_alg».proof.Proof.Product
import proofs.«151459_g5703716569288_cont_9to1c4b_55_33_alg».proof.Proof.Spec

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Body Idealize.ShloMosaic.ValueIdx

variable (m : (ℓ : Loc nD τ sig) → Buf (Elt Ideal) ℓ) (ρ : Dev nD → PrngReg)

open Cert.Spec

/-- The specified result, of the argument arrays on core `c`. -/
abbrev result (c : Dev nD) : S32768x128.Idx → EReal :=
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The running sum as a sum over the slots so far -/

/-- The product of the slot worked on at point `n` (zero past the grid, where it is never read). -/
def slotProd (c : Dev nD) (n : ℕ) : S128x8192.Idx → EReal :=
  if h : n < cfg0.N then k0_pay1 (F := Ideal) (iblk m c 0 ⟨n, h⟩) (iblk m c 2 ⟨n, h⟩) (iblk m c 3 ⟨n, h⟩) (iblk m c 1 ⟨n, h⟩) (iblk m c 4 ⟨n, h⟩) else fun _ => 0

theorem accAfter_step (c : Dev nD) (n : ℕ) (h : n + 1 < cfg0.N) (h0 : ¬(n + 1) % 5 = 0) :
    accAfter m c (n + 1) h = k0_pay3 (F := Ideal) (iblk m c 0 ⟨n + 1, h⟩) (iblk m c 2 ⟨n + 1, h⟩) (iblk m c 3 ⟨n + 1, h⟩) (iblk m c 1 ⟨n + 1, h⟩) (iblk m c 4 ⟨n + 1, h⟩) (accAfter m c n (Nat.lt_of_succ_lt h)) :=
  if_neg h0

/-- After the point of slot `j` of a sample block the accumulator is the sum of the products of its slots 0 … j. -/
theorem accAfter_sum (c : Dev nD) (t : Fin cfg0.N) (i : S128x8192.Idx) :
    accAfter m c t.val t.isLt i = 0 + ∑ r ∈ Finset.range (t.val % 5 + 1), slotProd m c (5 * (t.val / 5) + r) i := by
  have hN : cfg0.N = 20 := N_0
  have ht : t.val < 20 := lt_of_lt_of_eq t.isLt hN
  have h' : 5 * (t.val / 5) + t.val % 5 < cfg0.N := by rw [Nat.div_add_mod]; exact t.isLt
  rw [Pipeline.eq_accAt_of_mod (fun n h => accAfter m c n h) 5
      (fun n h => k0_pay2 (F := Ideal) (iblk m c 0 ⟨n, h⟩) (iblk m c 2 ⟨n, h⟩) (iblk m c 3 ⟨n, h⟩) (iblk m c 1 ⟨n, h⟩) (iblk m c 4 ⟨n, h⟩))
      (fun n h acc => k0_pay3 (F := Ideal) (iblk m c 0 ⟨n, h⟩) (iblk m c 2 ⟨n, h⟩) (iblk m c 3 ⟨n, h⟩) (iblk m c 1 ⟨n, h⟩) (iblk m c 4 ⟨n, h⟩) acc)
      (fun n h h0 => accAfter_first m c ⟨n, h⟩ h0)
      (fun n h h0 => accAfter_step m c n h h0)
      (by decide) t.val t.isLt h']
  refine Pipeline.accAt_add_apply _ _ (fun _ => (0 : EReal)) (slotProd m c) (5 * (t.val / 5)) 4 ?_ ?_ (t.val % 5) (by omega) h' i
  · intro h i
    show k0_pay2 (F := Ideal) _ _ _ _ _ i = 0 + slotProd m c (5 * (t.val / 5)) i
    rw [first_store, zero_add]
    unfold slotProd
    rw [dif_pos h]
  · intro n h acc i _ _
    show k0_pay3 (F := Ideal) _ _ _ _ _ acc i = acc i + slotProd m c n i
    rw [later_store]
    unfold slotProd
    rw [dif_pos h]

/-! ## What a last slot writes back -/

/-- Entry (x, s) of the block written back at the last slot of sample block `t / 5` is the specified value at sample
    8192 (t / 5) + x, unit s. -/
theorem written_entry (c : Dev nD) (t : Fin cfg0.N) (h4 : t.val % 5 = 4) (x : Fin 8192) (s : Fin 128) (b : Fin 32768)
    (hb : b.val = 8192 * (t.val / 5) + x.val) :
    k0_pay4 (F := Ideal) (accAfter m c t.val t.isLt) (iblk m c 5 t) (ix2 x s) = result m c (ix2 b s) := by
  have hN : cfg0.N = 20 := N_0
  have ht : t.val < 20 := lt_of_lt_of_eq t.isLt hN
  rw [epilogue_apply, accAfter_sum, h4, zero_add, bias2_block m c t s]
  unfold result
  rw [out_by_slots]
  congr 2
  rw [Finset.sum_range fun r => slotProd m c (5 * (t.val / 5) + r) (ix2 s x)]
  refine Finset.sum_congr rfl fun j _ => ?_
  have hj5 : j.val < 5 := j.isLt
  have hj : 5 * (t.val / 5) + j.val < cfg0.N := lt_of_lt_of_eq (by omega : 5 * (t.val / 5) + j.val < 20) hN.symm
  unfold slotProd
  rw [dif_pos hj, product_apply]
  refine Finset.sum_congr rfl fun d _ => ?_
  have hq : (5 * (t.val / 5) + j.val) / 5 = t.val / 5 := by omega
  have hr : (5 * (t.val / 5) + j.val) % 5 = j.val := by omega
  rw [bands_block m c ⟨_, hj⟩ d s (col j d) (by show j.val * 64 + d.val = (5 * (t.val / 5) + j.val) % 5 * 64 + d.val; rw [hr]),
    bias1_block m c ⟨_, hj⟩ d,
    flags_block m c ⟨_, hj⟩ x b j (by show b.val = 8192 * ((5 * (t.val / 5) + j.val) / 5) + x.val; rw [hq, hb]) (by show j.val = _; rw [hr])]
  congr 4
  refine Finset.sum_congr rfl fun f _ => ?_
  rw [wmap_block m c ⟨_, hj⟩ f d,
    counts_block m c ⟨_, hj⟩ f x b j (by show b.val = 8192 * ((5 * (t.val / 5) + j.val) / 5) + x.val; rw [hq, hb]) (by show j.val = _; rw [hr])]

end Cert.KernelIdeal.Result

end
-- ==== Proof.Final.lean ====
/-
  The blocks written back at the four last slots tile the result array, and each is the corresponding block of the
  specified function; so after the run the result array is the specified function of the arguments, and the
  arguments are unchanged.
-/
import proofs.«151459_g5703716569288_cont_9to1c4b_55_33_alg».proof.Proof.Result

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Body Idealize.ShloMosaic.ValueIdx

variable (m : (ℓ : Loc nD τ sig) → Buf (Elt Ideal) ℓ) (ρ : Dev nD → PrngReg)

/-- What a last slot writes back is its block of the specified result. -/
theorem flushed_eq (c : Dev nD) (t : Fin cfg0.N) (hf : (cfg0.win 6).flush t = true) :
    (dats m 0 c).flushed 6 t = ((cfg0.win 6).blk t).view.read (Elt Ideal) (result m c) := by
  have h4 : t.val % 5 = 4 := (flush0_6 t).mp hf
  have hN : cfg0.N = 20 := N_0
  have ht : t.val < 20 := lt_of_lt_of_eq t.isLt hN
  obtain ⟨-, -, -, -, -, -, -, -, -, -, -, -, -, -, -, e0, e1⟩ := idx_facts t
  show (cfg0.win 6).cut (grid0.coords t) ((dats m 0 c).after 6 t) = _
  rw [after_out]
  funext y
  rw [View.read_apply]
  show k0_pay4 (F := Ideal) (accAfter m c t.val t.isLt) (iblk m c 5 t) y = result m c (((cfg0.win 6).blk t).view.emb y)
  have hy0 : (y 0).val < 8192 := (y 0).isLt
  refine (congrArg (k0_pay4 (F := Ideal) (accAfter m c t.val t.isLt) (iblk m c 5 t)) (eq_ix2 y)).trans
    ((written_entry m c t h4 (y 0) (y 1) ⟨8192 * (t.val / 5) + (y 0).val, by omega⟩ rfl).trans (congrArg (result m c) ?_))
  funext a
  apply Fin.ext
  match a with
  | ⟨0, _⟩ => show 8192 * (t.val / 5) + (y 0).val = win0_6.index t (0 : Fin 2) * 8192 + 1 * (y 0).val; omega
  | ⟨1, _⟩ => show (y 1).val = win0_6.index t (1 : Fin 2) * 128 + 1 * (y 1).val; omega

/-- An entry of the result array is in point `t`'s block iff each coordinate is in the block's range on its axis. -/
theorem mem_blk (t : Fin cfg0.N) (i : S32768x128.Idx) :
    i ∈ ((cfg0.win 6).blk t).view.set ↔ ∀ a : Fin 2, win0_6.index t a * S8192x128.size a ≤ (i a).val
      ∧ (i a).val < win0_6.index t a * S8192x128.size a + S8192x128.size a := by
  show i ∈ ((View.whole main_v0).slice (win0_6.rect t)).set ↔ _
  rw [View.set_slice_whole, Rect.mem_set_unit]
  exact Iff.rfl

/-- Every entry of the result array is in the block written back at the last slot of its sample block. -/
theorem covered (i : S32768x128.Idx) :
    ∃ t : Fin cfg0.N, (cfg0.win 6).flush t = true ∧ i ∈ ((cfg0.win 6).blk t).view.set := by
  have hN : cfg0.N = 20 := N_0
  have h0 : (i 0).val < 32768 := (i 0).isLt
  have h1 : (i 1).val < 128 := (i 1).isLt
  have hlt : 5 * ((i 0).val / 8192) + 4 < cfg0.N := by rw [hN]; omega
  obtain ⟨-, -, -, -, -, -, -, -, -, -, -, -, -, -, -, e0, e1⟩ := idx_facts ⟨5 * ((i 0).val / 8192) + 4, hlt⟩
  have e0' : win0_6.index ⟨5 * ((i 0).val / 8192) + 4, hlt⟩ (0 : Fin 2) = (5 * ((i 0).val / 8192) + 4) / 5 := e0
  refine ⟨⟨5 * ((i 0).val / 8192) + 4, hlt⟩, (flush0_6 _).mpr (by show (5 * ((i 0).val / 8192) + 4) % 5 = 4; omega), ?_⟩
  rw [mem_blk]
  intro a
  match a with
  | ⟨0, _⟩ =>
    show win0_6.index ⟨5 * ((i 0).val / 8192) + 4, hlt⟩ (0 : Fin 2) * 8192 ≤ (i 0).val
      ∧ (i 0).val < win0_6.index ⟨5 * ((i 0).val / 8192) + 4, hlt⟩ (0 : Fin 2) * 8192 + 8192
    rw [e0']; omega
  | ⟨1, _⟩ =>
    show win0_6.index ⟨5 * ((i 0).val / 8192) + 4, hlt⟩ (1 : Fin 2) * 128 ≤ (i 1).val
      ∧ (i 1).val < win0_6.index ⟨5 * ((i 0).val / 8192) + 4, hlt⟩ (1 : Fin 2) * 128 + 128
    rw [e1]; omega

/-- The result array after the run. -/
theorem final (c : Dev nD) : (dats m 0 c).arrAt 6 cfg0.N = result m c :=
  (dats m 0 c).arrAt_eq_of_cover 6 (result m c) (flushed_eq m c) covered

/-- The run, read: the result array at the specified function of the arguments, the arguments unchanged. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Result

end
-- ==== Proof.RefValue.lean ====
/-
  The reference program computes the specified function: read one entry at a time, its two products, two biases, two
  clamps and the mask are the specification's, with each operand read at the coordinates the reshapes and broadcasts
  send the entry to. Column k of the flattened [32768, 320] intermediate is slot k / 64, unit k % 64.
-/
import proofs.«151459_g5703716569288_cont_9to1c4b_55_33_alg».proof.Proof.Gen.ReferenceIdeal.Read
import proofs.«151459_g5703716569288_cont_9to1c4b_55_33_alg».proof.Proof.Gen.ReferenceIdeal.Run
import proofs.«151459_g5703716569288_cont_9to1c4b_55_33_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Spec

/-- Where entry (b, k) of the flattened intermediate sits in the [32768, 5, 64] array. -/
theorem flat_idx (b : Fin 32768) (s : Fin 128) (k : Fin 320) :
    idx_main_v9 (lidx_main_v10 (ix2 b s) k) = ix3 b (slotOf k) (unitOf k) := by
  funext a
  apply Fin.ext
  have h0 : b.val < 32768 := b.isLt
  have h1 : k.val < 320 := k.isLt
  match a with
  | ⟨0, _⟩ => show (b.val * 320 + k.val) / 320 = b.val; omega
  | ⟨1, _⟩ => show (b.val * 320 + k.val) / 64 % 5 = k.val / 64; omega
  | ⟨2, _⟩ => show (b.val * 320 + k.val) % 64 = k.val % 64; omega

theorem ref_eq (x0 : Counts) (x1 : Observed) (x2 : WMap) (x3 : BMap) (x4 : WRed) (x5 : BRed) :
    val_main_v14 (F := Ideal) x0 x1 x2 x3 x4 x5 = Cert.Spec.out x0 x1 x2 x3 x4 x5 := by
  funext i
  obtain ⟨b, s, rfl⟩ : ∃ (b : Fin 32768) (s : Fin 128), i = ix2 b s := ⟨i 0, i 1, eq_ix2 i⟩
  rw [val_main_v14_apply, val_main_v13_apply, val_main_v10_apply, val_main_v12_apply, val_main_v11_apply,
    val_main_call1_v0_apply, val_main_call1_cst_apply]
  unfold Cert.Spec.out
  simp only [Ideal.maximumf_def, Ideal.addf_def, Ideal.ofBits_def]
  show max (_ + _) _
    = max ((∑ k : Fin 320, feat x0 x1 x2 x3 b (slotOf k) (unitOf k) * x4 (ix2 k s)) + x5 (ix1 s)) (Ideal.ofBits .f32 0x00000000#32)
  have e5 : idx_main_v11 (idx_main_v12 (ix2 b s)) = ix1 s := funext fun a => Fin.ext (by match a with | ⟨0, _⟩ => rfl)
  rw [e5]
  congr 2
  refine Finset.sum_congr rfl fun k _ => ?_
  have e4 : ridx_main_v10 (ix2 b s) k = ix2 k s := funext fun a => Fin.ext (by match a with | ⟨0, _⟩ => rfl | ⟨1, _⟩ => rfl)
  rw [e4, val_main_v9_apply, flat_idx, val_main_v8_apply, val_main_v4_apply, val_main_v3_apply, val_main_v0_apply,
    val_main_v2_apply, val_main_v1_apply, val_main_call0_v0_apply, val_main_call0_cst_apply, val_main_v7_apply,
    val_main_v6_apply, val_main_v5_apply]
  unfold Cert.Spec.feat
  simp only [Ideal.maximumf_def, Ideal.addf_def, Ideal.mulf_def, Ideal.ofBits_def]
  have e1 : idx_main_v1 (idx_main_v2 (ix3 b (slotOf k) (unitOf k))) = ix1 (unitOf k) :=
    funext fun a => Fin.ext (by match a with | ⟨0, _⟩ => rfl)
  have e6 : idx_main_v6 (idx_main_v7 (ix3 b (slotOf k) (unitOf k))) = ix2 b (slotOf k) :=
    funext fun a => Fin.ext (by match a with | ⟨0, _⟩ => rfl | ⟨1, _⟩ => rfl)
  rw [e1, e6]
  congr 4
  refine Finset.sum_congr rfl fun f _ => ?_
  have el : lidx_main_v0 (ix3 b (slotOf k) (unitOf k)) f = ix3 b (slotOf k) f :=
    funext fun a => Fin.ext (by match a with | ⟨0, _⟩ => rfl | ⟨1, _⟩ => rfl | ⟨2, _⟩ => rfl)
  have er : ridx_main_v0 (ix3 b (slotOf k) (unitOf k)) f = ix2 f (unitOf k) :=
    funext fun a => Fin.ext (by match a with | ⟨0, _⟩ => rfl | ⟨1, _⟩ => rfl)
  rw [el, er]

end Cert.ReferenceIdeal.RefValue

end
-- ==== Proof.lean ====
/-
  The certificate's claim.

  The kernel computes, for each block of 8192 samples, a running sum over the five count slots of the product of the
  slot's 64-row band of the second weight matrix with the slot's encoded, masked counts, and writes out the sum plus bias,
  clamped at zero. The reference flattens the five slots' encodings to 320 columns and takes one product. The sum over
  320 columns is the sum over five slots of sums over 64 units, and the factors of each product commute, so over the
  extended reals the two results are equal entry by entry, for all inputs. Each program runs to the end without a
  fault and leaves its arguments unchanged; the idealized kernel is the kernel's own text read over the extended reals.
-/
import proofs.«151459_g5703716569288_cont_9to1c4b_55_33_alg».proof.Defs
import proofs.«151459_g5703716569288_cont_9to1c4b_55_33_alg».proof.Proof.Gen.Kernel
import proofs.«151459_g5703716569288_cont_9to1c4b_55_33_alg».proof.Proof.Gen.KernelIdeal
import proofs.«151459_g5703716569288_cont_9to1c4b_55_33_alg».proof.Proof.Gen.ReferenceIdeal
import proofs.«151459_g5703716569288_cont_9to1c4b_55_33_alg».proof.Proof.Gen.Pre_finite_inputs
import proofs.«151459_g5703716569288_cont_9to1c4b_55_33_alg».proof.Proof.WordAccum
import proofs.«151459_g5703716569288_cont_9to1c4b_55_33_alg».proof.Proof.Final
import proofs.«151459_g5703716569288_cont_9to1c4b_55_33_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specified function of arguments that agree. -/
theorem algebraic : Cert.algebraic_KernelIdeal_ReferenceIdeal := by
  intro m ρ m' ρ' _ hagree
  refine ⟨fun c => Cert.KernelIdeal.Result.result m c, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
